-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S50x1024 : Shape := ⟨2, ![50, 1024]⟩
abbrev S50 : Shape := ⟨1, ![50]⟩
abbrev S20x50 : Shape := ⟨2, ![20, 50]⟩
abbrev S20 : Shape := ⟨1, ![20]⟩
abbrev S10x20 : Shape := ⟨2, ![10, 20]⟩
abbrev S10 : Shape := ⟨1, ![10]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S50x1024 : S_.BroadcastsInDim S50x1024 (![] : Fin 0 → Fin S50x1024.rank)
  reducesTo_S50x1024_S_d0_1 : S50x1024.ReducesTo [0, 1] S_
  bcast_S_S50 : S_.BroadcastsInDim S50 (![] : Fin 0 → Fin S50.rank)
  reducesTo_S50_S_d0 : S50.ReducesTo [0] S_
  bcast_S_S20x50 : S_.BroadcastsInDim S20x50 (![] : Fin 0 → Fin S20x50.rank)
  reducesTo_S20x50_S_d0_1 : S20x50.ReducesTo [0, 1] S_
  bcast_S_S20 : S_.BroadcastsInDim S20 (![] : Fin 0 → Fin S20.rank)
  reducesTo_S20_S_d0 : S20.ReducesTo [0] S_
  bcast_S_S10x20 : S_.BroadcastsInDim S10x20 (![] : Fin 0 → Fin S10x20.rank)
  reducesTo_S10x20_S_d0_1 : S10x20.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S20 .f32) (main_arg12 : FVec F S20 .f32) (main_arg13 : FVec F S10x20 .f32) (main_arg14 : FVec F S10 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S20 .f32 := Host.absf main_arg11
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S20 .f32 := Host.absf main_arg12
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S10x20 .f32 := Host.absf main_arg13
  let main_cst_24 : FVec F S_ .f32 := constant S_ .f32 0x7F800000#32
  let main_v65 : FVec F S10x20 .f32 := broadcastInDim S10x20 ![] bcast_S_S10x20 main_cst_24
  let main_v66 : IVec S10x20 1 := cmpf .olt main_v64 main_v65
  let main_c_25 : IVec S_ 1 := constantI S_ 1 1#1
  let main_v67 : IVec S_ 1 := (fun x v => Host.reduce IntOp.andi x v reducesTo_S10x20_S_d0_1 h_S_) main_v66 main_c_25
  fn_part4 (F := F) main_arg14 main_v63 main_v67

def fn_part2 {F : FTy → Type} [FloatOps F] (main_arg7 : FVec F S20x50 .f32) (main_arg8 : FVec F S20 .f32) (main_arg9 : FVec F S20 .f32) (main_arg10 : FVec F S20 .f32) (main_arg11 : FVec F S20 .f32) (main_arg12 : FVec F S20 .f32) (main_arg13 : FVec F S10x20 .f32) (main_arg14 : FVec F S10 .f32) (main_v33 : IVec S_ 1) : IVec S_ 1 :=
  let main_v34 : FVec F S20x50 .f32 := Host.absf main_arg7
  let main_cst_12 : FVec F S_ .f32 := constant S_ .f32 0x7F800000#32
  let main_v35 : FVec F S20x50 .f32 := broadcastInDim S20x50 ![] bcast_S_S20x50 main_cst_12
  let main_v36 : IVec S20x50 1 := cmpf .olt main_v34 main_v35
  let main_c_13 : IVec S_ 1 := constantI S_ 1 1#1
  let main_v37 : IVec S_ 1 := (fun x v => Host.reduce IntOp.andi x v reducesTo_S20x50_S_d0_1 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20 .f32 := Host.absf main_arg9
  let main_cst_16 : FVec F S_ .f32 := constant S_ .f32 0x7F800000#32
  let main_v45 : FVec F S20 .f32 := broadcastInDim S20 ![] bcast_S_S20 main_cst_16
  let main_v46 : IVec S20 1 := cmpf .olt main_v44 main_v45
  let main_c_17 : IVec S_ 1 := constantI S_ 1 1#1
  let main_v47 : IVec S_ 1 := (fun x v => Host.reduce IntOp.andi x v reducesTo_S20_S_d0 h_S_) main_v46 main_c_17
  let main_v48 : IVec S_ 1 := andi main_v43 main_v47
  let main_v49 : FVec F S20 .f32 := Host.absf main_arg10
  let main_cst_18 : FVec F S_ .f32 := constant S_ .f32 0x7F800000#32
  let main_v50 : FVec F S20 .f32 := broadcastInDim S20 ![] bcast_S_S20 main_cst_18
  fn_part3 (F := F) main_arg11 main_arg12 main_arg13 main_arg14 main_v48 main_v49 main_v50

def fn_part1 {F : FTy → Type} [FloatOps F] (main_arg4 : FVec F S50 .f32) (main_arg5 : FVec F S50 .f32) (main_arg6 : FVec F S50 .f32) (main_arg7 : FVec F S20x50 .f32) (main_arg8 : FVec F S20 .f32) (main_arg9 : FVec F S20 .f32) (main_arg10 : FVec F S20 .f32) (main_arg11 : FVec F S20 .f32) (main_arg12 : FVec F S20 .f32) (main_arg13 : FVec F S10x20 .f32) (main_arg14 : FVec F S10 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_v24 : FVec F S50 .f32 := Host.absf main_arg5
  let main_cst_8 : FVec F S_ .f32 := constant S_ .f32 0x7F800000#32
  let main_v25 : FVec F S50 .f32 := broadcastInDim S50 ![] bcast_S_S50 main_cst_8
  let main_v26 : IVec S50 1 := cmpf .olt main_v24 main_v25
  let main_c_9 : IVec S_ 1 := constantI S_ 1 1#1
  let main_v27 : IVec S_ 1 := (fun x v => Host.reduce IntOp.andi x v reducesTo_S50_S_d0 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x1024 .f32) (main_arg1 : FVec F S50x1024 .f32) (main_arg2 : FVec F S50 .f32) (main_arg3 : FVec F S50 .f32) (main_arg4 : FVec F S50 .f32) (main_arg5 : FVec F S50 .f32) (main_arg6 : FVec F S50 .f32) (main_arg7 : FVec F S20x50 .f32) (main_arg8 : FVec F S20 .f32) (main_arg9 : FVec F S20 .f32) (main_arg10 : FVec F S20 .f32) (main_arg11 : FVec F S20 .f32) (main_arg12 : FVec F S20 .f32) (main_arg13 : FVec F S10x20 .f32) (main_arg14 : FVec F S10 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S50x1024 .f32 := Host.absf main_arg1
  let main_cst_0 : FVec F S_ .f32 := constant S_ .f32 0x7F800000#32
  let main_v5 : FVec F S50x1024 .f32 := broadcastInDim S50x1024 ![] bcast_S_S50x1024 main_cst_0
  let main_v6 : IVec S50x1024 1 := cmpf .olt main_v4 main_v5
  let main_c_1 : IVec S_ 1 := constantI S_ 1 1#1
  let main_v7 : IVec S_ 1 := (fun x v => Host.reduce IntOp.andi x v reducesTo_S50x1024_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  let main_v14 : FVec F S50 .f32 := Host.absf main_arg3
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x1024 : Shape := ⟨2, ![65536, 1024]⟩
abbrev S50x1024 : Shape := ⟨2, ![50, 1024]⟩
abbrev S50 : Shape := ⟨1, ![50]⟩
abbrev S20x50 : Shape := ⟨2, ![20, 50]⟩
abbrev S20 : Shape := ⟨1, ![20]⟩
abbrev S10x20 : Shape := ⟨2, ![10, 20]⟩
abbrev S10 : Shape := ⟨1, ![10]⟩
abbrev S1x50 : Shape := ⟨2, ![1, 50]⟩
abbrev S1x20 : Shape := ⟨2, ![1, 20]⟩
abbrev S1x10 : Shape := ⟨2, ![1, 10]⟩
abbrev S65536x10 : Shape := ⟨2, ![65536, 10]⟩
abbrev S2048x1024 : Shape := ⟨2, ![2048, 1024]⟩
abbrev S2048x10 : Shape := ⟨2, ![2048, 10]⟩
abbrev S2048x50 : Shape := ⟨2, ![2048, 50]⟩
abbrev S2048x20 : Shape := ⟨2, ![2048, 20]⟩
abbrev S2048 : Shape := ⟨1, ![2048]⟩
abbrev S2048x1 : Shape := ⟨2, ![2048, 1]⟩

abbrev nBuf : Space → Nat
  | .hbm => 27
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S50x1024, .f32⟩
  | .hbm, ⟨2, _⟩ => ⟨S50, .f32⟩
  | .hbm, ⟨3, _⟩ => ⟨S50, .f32⟩
  | .hbm, ⟨4, _⟩ => ⟨S50, .f32⟩
  | .hbm, ⟨5, _⟩ => ⟨S50, .f32⟩
  | .hbm, ⟨6, _⟩ => ⟨S50, .f32⟩
  | .hbm, ⟨7, _⟩ => ⟨S20x50, .f32⟩
  | .hbm, ⟨8, _⟩ => ⟨S20, .f32⟩
  | .hbm, ⟨9, _⟩ => ⟨S20, .f32⟩
  | .hbm, ⟨10, _⟩ => ⟨S20, .f32⟩
  | .hbm, ⟨11, _⟩ => ⟨S20, .f32⟩
  | .hbm, ⟨12, _⟩ => ⟨S20, .f32⟩
  | .hbm, ⟨13, _⟩ => ⟨S10x20, .f32⟩
  | .hbm, ⟨14, _⟩ => ⟨S10, .f32⟩
  | .hbm, ⟨15, _⟩ => ⟨S1x50, .f32⟩
  | .hbm, ⟨16, _⟩ => ⟨S1x50, .f32⟩
  | .hbm, ⟨17, _⟩ => ⟨S1x50, .f32⟩
  | .hbm, ⟨18, _⟩ => ⟨S1x50, .f32⟩
  | .hbm, ⟨19, _⟩ => ⟨S1x50, .f32⟩
  | .hbm, ⟨20, _⟩ => ⟨S1x20, .f32⟩
  | .hbm, ⟨21, _⟩ => ⟨S1x20, .f32⟩
  | .hbm, ⟨22, _⟩ => ⟨S1x20, .f32⟩
  | .hbm, ⟨23, _⟩ => ⟨S1x20, .f32⟩
  | .hbm, ⟨24, _⟩ => ⟨S1x20, .f32⟩
  | .hbm, ⟨25, _⟩ => ⟨S1x10, .f32⟩
  | .hbm, ⟨26, _⟩ => ⟨S65536x10, .f32⟩
  | .local _ .vmem, ⟨0, _⟩ => ⟨S2048x1024, .f32⟩
  | .local _ .vmem, ⟨1, _⟩ => ⟨S2048x1024, .f32⟩
  | .local _ .vmem, ⟨2, _⟩ => ⟨S50x1024, .f32⟩
  | .local _ .vmem, ⟨3, _⟩ => ⟨S1x50, .f32⟩
  | .local _ .vmem, ⟨4, _⟩ => ⟨S1x50, .f32⟩
  | .local _ .vmem, ⟨5, _⟩ => ⟨S1x50, .f32⟩
  | .local _ .vmem, ⟨6, _⟩ => ⟨S1x50, .f32⟩
  | .local _ .vmem, ⟨7, _⟩ => ⟨S1x50, .f32⟩
  | .local _ .vmem, ⟨8, _⟩ => ⟨S20x50, .f32⟩
  | .local _ .vmem, ⟨9, _⟩ => ⟨S1x20, .f32⟩
  | .local _ .vmem, ⟨10, _⟩ => ⟨S1x20, .f32⟩
  | .local _ .vmem, ⟨11, _⟩ => ⟨S1x20, .f32⟩
  | .local _ .vmem, ⟨12, _⟩ => ⟨S1x20, .f32⟩
  | .local _ .vmem, ⟨13, _⟩ => ⟨S1x20, .f32⟩
  | .local _ .vmem, ⟨14, _⟩ => ⟨S10x20, .f32⟩
  | .local _ .vmem, ⟨15, _⟩ => ⟨S1x10, .f32⟩
  | .local _ .vmem, ⟨16, _⟩ => ⟨S2048x10, .f32⟩
  | .local _ .vmem, ⟨17, _⟩ => ⟨S2048x10, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x20 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x20 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S10x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2048x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S50_S1x50 : S50.ShapeCasts S1x50
  shapeCasts_S20_S1x20 : S20.ShapeCasts S1x20
  shapeCasts_S10_S1x10 : S10.ShapeCasts S1x10
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S50x1024_S50x1024_0_0 : ∀ a, (![0, 0] : Fin 2 → Nat) a + S50x1024.size a ≤ S50x1024.size a
  h_S50x1024 : 0 < S50x1024.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S2048x50 : S1x50.Broadcasts S2048x50
  inb_S20x50_S20x50_0_0 : ∀ a, (![0, 0] : Fin 2 → Nat) a + S20x50.size a ≤ S20x50.size a
  h_S20x50 : 0 < S20x50.numel
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2048x20 : S1x20.Broadcasts S2048x20
  inb_S10x20_S10x20_0_0 : ∀ a, (![0, 0] : Fin 2 → Nat) a + S10x20.size a ≤ S10x20.size a
  h_S10x20 : 0 < S10x20.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x1024_S50x1024_S2048x50_1_1_0_0_n_n_wf : DotDims.WF S2048x1024 S50x1024 S2048x50 [1] [1] [0] [0] [] []
  dot_S2048x50_S20x50_S2048x20_1_1_0_0_n_n_wf : DotDims.WF S2048x50 S20x50 S2048x20 [1] [1] [0] [0] [] []
  dot_S2048x20_S10x20_S2048x10_1_1_0_0_n_n_wf : DotDims.WF S2048x20 S10x20 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x1024.size a ≤ S50x1024.size a
  hwx0_1 : ∀ i : grid0.Coords, EltTy.bits .f32 = 32 ∨ (Rect.block (s := S50x1024) S50x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x50.size a ≤ S1x50.size a
  hwx0_3 : ∀ i : grid0.Coords, EltTy.bits .f32 = 32 ∨ (Rect.block (s := S1x50) S1x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x50.size a ≤ S1x50.size a
  hwx0_4 : ∀ i : grid0.Coords, EltTy.bits .f32 = 32 ∨ (Rect.block (s := S1x50) S1x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x50.size a ≤ S1x50.size a
  hwx0_5 : ∀ i : grid0.Coords, EltTy.bits .f32 = 32 ∨ (Rect.block (s := S1x50) S1x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x50.size a ≤ S1x50.size a
  hwx0_6 : ∀ i : grid0.Coords, EltTy.bits .f32 = 32 ∨ (Rect.block (s := S1x50) S1x50.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x50.size a ≤ S20x50.size a
  hwx0_7 : ∀ i : grid0.Coords, EltTy.bits .f32 = 32 ∨ (Rect.block (s := S20x50) S20x50.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x20.size a ≤ S1x20.size a
  hwx0_8 : ∀ i : grid0.Coords, EltTy.bits .f32 = 32 ∨ (Rect.block (s := S1x20) S1x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x20.size a ≤ S1x20.size a
  hwx0_9 : ∀ i : grid0.Coords, EltTy.bits .f32 = 32 ∨ (Rect.block (s := S1x20) S1x20.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x20.size a ≤ S1x20.size a
  hwx0_10 : ∀ i : grid0.Coords, EltTy.bits .f32 = 32 ∨ (Rect.block (s := S1x20) S1x20.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x20.size a ≤ S1x20.size a
  hwx0_11 : ∀ i : grid0.Coords, EltTy.bits .f32 = 32 ∨ (Rect.block (s := S1x20) S1x20.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x20.size a ≤ S1x20.size a
  hwx0_12 : ∀ i : grid0.Coords, EltTy.bits .f32 = 32 ∨ (Rect.block (s := S1x20) S1x20.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S10x20.size a ≤ S10x20.size a
  hwx0_13 : ∀ i : grid0.Coords, EltTy.bits .f32 = 32 ∨ (Rect.block (s := S10x20) S10x20.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x10.size a ≤ S65536x10.size a
  hwx0_15 : ∀ i : grid0.Coords, EltTy.bits .f32 = 32 ∨ (Rect.block (s := S65536x10) S2048x10.size (cc0_transform_15 i) (hinb0_15 i)).WholeWords (EltTy.packing .f32)

variable [Facts₀]

def dot_S2048x1024_S50x1024_S2048x50_1_1_0_0_n_n : DotDims S2048x1024 S50x1024 S2048x50 where
  lhsContracting := [1]
  rhsContracting := [1]
  lhsNonContracting := [0]
  rhsNonContracting := [0]
  lhsBatch := []
  rhsBatch := []
  wf := dot_S2048x1024_S50x1024_S2048x50_1_1_0_0_n_n_wf
def dot_S2048x50_S20x50_S2048x20_1_1_0_0_n_n : DotDims S2048x50 S20x50 S2048x20 where
  lhsContracting := [1]
  rhsContracting := [1]
  lhsNonContracting := [0]
  rhsNonContracting := [0]
  lhsBatch := []
  rhsBatch := []
  wf := dot_S2048x50_S20x50_S2048x20_1_1_0_0_n_n_wf
def dot_S2048x20_S10x20_S2048x10_1_1_0_0_n_n : DotDims S2048x20 S10x20 S2048x10 where
  lhsContracting := [1]
  rhsContracting := [1]
  lhsNonContracting := [0]
  rhsNonContracting := [0]
  lhsBatch := []
  rhsBatch := []
  wf := dot_S2048x20_S10x20_S2048x10_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S20x50.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x20.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x20.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v9) S1x20.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S10x20.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v10) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v11) S2048x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S50x1024 : Shape := ⟨2, ![50, 1024]⟩
abbrev S50 : Shape := ⟨1, ![50]⟩
abbrev S20x50 : Shape := ⟨2, ![20, 50]⟩
abbrev S20 : Shape := ⟨1, ![20]⟩
abbrev S10x20 : Shape := ⟨2, ![10, 20]⟩
abbrev S10 : Shape := ⟨1, ![10]⟩
abbrev S_ : Shape := ⟨0, ![]⟩
abbrev S1024x50 : Shape := ⟨2, ![1024, 50]⟩
abbrev S65536x50 : Shape := ⟨2, ![65536, 50]⟩
abbrev S1x50 : Shape := ⟨2, ![1, 50]⟩
abbrev S50x20 : Shape := ⟨2, ![50, 20]⟩
abbrev S65536x20 : Shape := ⟨2, ![65536, 20]⟩
abbrev S1x20 : Shape := ⟨2, ![1, 20]⟩
abbrev S20x10 : Shape := ⟨2, ![20, 10]⟩
abbrev S65536x10 : Shape := ⟨2, ![65536, 10]⟩
abbrev S1x10 : Shape := ⟨2, ![1, 10]⟩
abbrev S65536 : Shape := ⟨1, ![65536]⟩
abbrev S65536x1 : Shape := ⟨2, ![65536, 1]⟩

abbrev nBuf : Space → Nat
  | .hbm => 122
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S50x1024, .f32⟩
  | .hbm, ⟨2, _⟩ => ⟨S50, .f32⟩
  | .hbm, ⟨3, _⟩ => ⟨S50, .f32⟩
  | .hbm, ⟨4, _⟩ => ⟨S50, .f32⟩
  | .hbm, ⟨5, _⟩ => ⟨S50, .f32⟩
  | .hbm, ⟨6, _⟩ => ⟨S50, .f32⟩
  | .hbm, ⟨7, _⟩ => ⟨S20x50, .f32⟩
  | .hbm, ⟨8, _⟩ => ⟨S20, .f32⟩
  | .hbm, ⟨9, _⟩ => ⟨S20, .f32⟩
  | .hbm, ⟨10, _⟩ => ⟨S20, .f32⟩
  | .hbm, ⟨11, _⟩ => ⟨S20, .f32⟩
  | .hbm, ⟨12, _⟩ => ⟨S20, .f32⟩
  | .hbm, ⟨13, _⟩ => ⟨S10x20, .f32⟩
  | .hbm, ⟨14, _⟩ => ⟨S10, .f32⟩
  | .hbm, ⟨15, _⟩ => ⟨S_, .f32⟩
  | .hbm, ⟨16, _⟩ => ⟨S50x1024, .f32⟩
  | .hbm, ⟨17, _⟩ => ⟨S50x1024, .i1⟩
  | .hbm, ⟨18, _⟩ => ⟨S_, .f32⟩
  | .hbm, ⟨19, _⟩ => ⟨S_, .f32⟩
  | .hbm, ⟨20, _⟩ => ⟨S50x1024, .f32⟩
  | .hbm, ⟨21, _⟩ => ⟨S50x1024, .f32⟩
  | .hbm, ⟨22, _⟩ => ⟨S50x1024, .f32⟩
  | .hbm, ⟨23, _⟩ => ⟨S50x1024, .f32⟩
  | .hbm, ⟨24, _⟩ => ⟨S1024x50, .f32⟩
  | .hbm, ⟨25, _⟩ => ⟨S65536x50, .f32⟩
  | .hbm, ⟨26, _⟩ => ⟨S1x50, .f32⟩
  | .hbm, ⟨27, _⟩ => ⟨S65536x50, .f32⟩
  | .hbm, ⟨28, _⟩ => ⟨S65536x50, .f32⟩
  | .hbm, ⟨29, _⟩ => ⟨S1x50, .f32⟩
  | .hbm, ⟨30, _⟩ => ⟨S65536x50, .f32⟩
  | .hbm, ⟨31, _⟩ => ⟨S65536x50, .f32⟩
  | .hbm, ⟨32, _⟩ => ⟨S1x50, .f32⟩
  | .hbm, ⟨33, _⟩ => ⟨S65536x50, .f32⟩
  | .hbm, ⟨34, _⟩ => ⟨S65536x50, .f32⟩
  | .hbm, ⟨35, _⟩ => ⟨S_, .f32⟩
  | .hbm, ⟨36, _⟩ => ⟨S50, .f32⟩
  | .hbm, ⟨37, _⟩ => ⟨S50, .f32⟩
  | .hbm, ⟨38, _⟩ => ⟨S50, .f32⟩
  | .hbm, ⟨39, _⟩ => ⟨S1x50, .f32⟩
  | .hbm, ⟨40, _⟩ => ⟨S65536x50, .f32⟩
  | .hbm, ⟨41, _⟩ => ⟨S65536x50, .f32⟩
  | .hbm, ⟨42, _⟩ => ⟨S1x50, .f32⟩
  | .hbm, ⟨43, _⟩ => ⟨S65536x50, .f32⟩
  | .hbm, ⟨44, _⟩ => ⟨S65536x50, .f32⟩
  | .hbm, ⟨45, _⟩ => ⟨S_, .f32⟩
  | .hbm, ⟨46, _⟩ => ⟨S65536x50, .f32⟩
  | .hbm, ⟨47, _⟩ => ⟨S65536x50, .i1⟩
  | .hbm, ⟨48, _⟩ => ⟨S_, .f32⟩
  | .hbm, ⟨49, _⟩ => ⟨S_, .f32⟩
  | .hbm, ⟨50, _⟩ => ⟨S65536x50, .f32⟩
  | .hbm, ⟨51, _⟩ => ⟨S65536x50, .f32⟩
  | .hbm, ⟨52, _⟩ => ⟨S65536x50, .f32⟩
  | .hbm, ⟨53, _⟩ => ⟨S65536x50, .f32⟩
  | .hbm, ⟨54, _⟩ => ⟨S_, .f32⟩
  | .hbm, ⟨55, _⟩ => ⟨S20x50, .f32⟩
  | .hbm, ⟨56, _⟩ => ⟨S20x50, .i1⟩
  | .hbm, ⟨57, _⟩ => ⟨S_, .f32⟩
  | .hbm, ⟨58, _⟩ => ⟨S_, .f32⟩
  | .hbm, ⟨59, _⟩ => ⟨S20x50, .f32⟩
  | .hbm, ⟨60, _⟩ => ⟨S20x50, .f32⟩
  | .hbm, ⟨61, _⟩ => ⟨S20x50, .f32⟩
  | .hbm, ⟨62, _⟩ => ⟨S20x50, .f32⟩
  | .hbm, ⟨63, _⟩ => ⟨S50x20, .f32⟩
  | .hbm, ⟨64, _⟩ => ⟨S65536x20, .f32⟩
  | .hbm, ⟨65, _⟩ => ⟨S1x20, .f32⟩
  | .hbm, ⟨66, _⟩ => ⟨S65536x20, .f32⟩
  | .hbm, ⟨67, _⟩ => ⟨S65536x20, .f32⟩
  | .hbm, ⟨68, _⟩ => ⟨S1x20, .f32⟩
  | .hbm, ⟨69, _⟩ => ⟨S65536x20, .f32⟩
  | .hbm, ⟨70, _⟩ => ⟨S65536x20, .f32⟩
  | .hbm, ⟨71, _⟩ => ⟨S1x20, .f32⟩
  | .hbm, ⟨72, _⟩ => ⟨S65536x20, .f32⟩
  | .hbm, ⟨73, _⟩ => ⟨S65536x20, .f32⟩
  | .hbm, ⟨74, _⟩ => ⟨S_, .f32⟩
  | .hbm, ⟨75, _⟩ => ⟨S20, .f32⟩
  | .hbm, ⟨76, _⟩ => ⟨S20, .f32⟩
  | .hbm, ⟨77, _⟩ => ⟨S20, .f32⟩
  | .hbm, ⟨78, _⟩ => ⟨S1x20, .f32⟩
  | .hbm, ⟨79, _⟩ => ⟨S65536x20, .f32⟩
  | .hbm, ⟨80, _⟩ => ⟨S65536x20, .f32⟩
  | .hbm, ⟨81, _⟩ => ⟨S1x20, .f32⟩
  | .hbm, ⟨82, _⟩ => ⟨S65536x20, .f32⟩
  | .hbm, ⟨83, _⟩ => ⟨S65536x20, .f32⟩
  | .hbm, ⟨84, _⟩ => ⟨S_, .f32⟩
  | .hbm, ⟨85, _⟩ => ⟨S65536x20, .f32⟩
  | .hbm, ⟨86, _⟩ => ⟨S65536x20, .i1⟩
  | .hbm, ⟨87, _⟩ => ⟨S_, .f32⟩
  | .hbm, ⟨88, _⟩ => ⟨S_, .f32⟩
  | .hbm, ⟨89, _⟩ => ⟨S65536x20, .f32⟩
  | .hbm, ⟨90, _⟩ => ⟨S65536x20, .f32⟩
  | .hbm, ⟨91, _⟩ => ⟨S65536x20, .f32⟩
  | .hbm, ⟨92, _⟩ => ⟨S65536x20, .f32⟩
  | .hbm, ⟨93, _⟩ => ⟨S_, .f32⟩
  | .hbm, ⟨94, _⟩ => ⟨S10x20, .f32⟩
  | .hbm, ⟨95, _⟩ => ⟨S10x20, .i1⟩
  | .hbm, ⟨96, _⟩ => ⟨S_, .f32⟩
  | .hbm, ⟨97, _⟩ => ⟨S_, .f32⟩
  | .hbm, ⟨98, _⟩ => ⟨S10x20, .f32⟩
  | .hbm, ⟨99, _⟩ => ⟨S10x20, .f32⟩
  | .hbm, ⟨100, _⟩ => ⟨S10x20, .f32⟩
  | .hbm, ⟨101, _⟩ => ⟨S10x20, .f32⟩
  | .hbm, ⟨102, _⟩ => ⟨S20x10, .f32⟩
  | .hbm, ⟨103, _⟩ => ⟨S65536x10, .f32⟩
  | .hbm, ⟨104, _⟩ => ⟨S1x10, .f32⟩
  | .hbm, ⟨105, _⟩ => ⟨S65536x10, .f32⟩
  | .hbm, ⟨106, _⟩ => ⟨S65536x10, .f32⟩
  | .hbm, ⟨107, _⟩ => ⟨S_, .f32⟩
  | .hbm, ⟨108, _⟩ => ⟨S65536, .f32⟩
  | .hbm, ⟨109, _⟩ => ⟨S_, .f32⟩
  | .hbm, ⟨110, _⟩ => ⟨S65536, .f32⟩
  | .hbm, ⟨111, _⟩ => ⟨S65536, .f32⟩
  | .hbm, ⟨112, _⟩ => ⟨S65536x1, .f32⟩
  | .hbm, ⟨113, _⟩ => ⟨S65536x10, .f32⟩
  | .hbm, ⟨114, _⟩ => ⟨S65536x10, .f32⟩
  | .hbm, ⟨115, _⟩ => ⟨S65536x10, .f32⟩
  | .hbm, ⟨116, _⟩ => ⟨S_, .f32⟩
  | .hbm, ⟨117, _⟩ => ⟨S65536, .f32⟩
  | .hbm, ⟨118, _⟩ => ⟨S65536x1, .f32⟩
  | .hbm, ⟨119, _⟩ => ⟨S65536x1, .f32⟩
  | .hbm, ⟨120, _⟩ => ⟨S65536x10, .f32⟩
  | .hbm, ⟨121, _⟩ => ⟨S65536x10, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_cst_8 : Ref sig .tc := ⟨.hbm, 58, rfl⟩
abbrev main_call2_v0 : Ref sig .tc := ⟨.hbm, 59, rfl⟩
abbrev main_call2_v1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_cst_12 : Ref sig .tc := ⟨.hbm, 88, rfl⟩
abbrev main_call3_v0 : Ref sig .tc := ⟨.hbm, 89, rfl⟩
abbrev main_call3_v1 : Ref sig .tc := ⟨.hbm, 90, rfl⟩
abbrev main_v54 : Ref sig .tc := ⟨.hbm, 91, rfl⟩
abbrev main_v55 : Ref sig .tc := ⟨.hbm, 92, rfl⟩
abbrev main_cst_13 : Ref sig .tc := ⟨.hbm, 93, rfl⟩
abbrev main_v56 : Ref sig .tc := ⟨.hbm, 94, rfl⟩
abbrev main_v57 : Ref sig .tc := ⟨.hbm, 95, rfl⟩
abbrev main_cst_14 : Ref sig .tc := ⟨.hbm, 96, rfl⟩
abbrev main_cst_15 : Ref sig .tc := ⟨.hbm, 97, rfl⟩
abbrev main_call4_v0 : Ref sig .tc := ⟨.hbm, 98, rfl⟩
abbrev main_call4_v1 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call5_cst : Ref sig .tc := ⟨.hbm, 107, rfl⟩
abbrev main_call5_v0 : Ref sig .tc := ⟨.hbm, 108, rfl⟩
abbrev main_call5_cst_0 : Ref sig .tc := ⟨.hbm, 109, rfl⟩
abbrev main_call5_v1 : Ref sig .tc := ⟨.hbm, 110, rfl⟩
abbrev main_call5_v2 : Ref sig .tc := ⟨.hbm, 111, rfl⟩
abbrev main_call5_v3 : Ref sig .tc := ⟨.hbm, 112, rfl⟩
abbrev main_call5_v4 : Ref sig .tc := ⟨.hbm, 113, rfl⟩
abbrev main_call5_v5 : Ref sig .tc := ⟨.hbm, 114, rfl⟩
abbrev main_call5_v6 : Ref sig .tc := ⟨.hbm, 115, rfl⟩
abbrev main_call5_cst_1 : Ref sig .tc := ⟨.hbm, 116, rfl⟩
abbrev main_call5_v7 : Ref sig .tc := ⟨.hbm, 117, rfl⟩
abbrev main_call5_v8 : Ref sig .tc := ⟨.hbm, 118, rfl⟩
abbrev main_call5_v9 : Ref sig .tc := ⟨.hbm, 119, rfl⟩
abbrev main_call5_v10 : Ref sig .tc := ⟨.hbm, 120, rfl⟩
abbrev main_v65 : Ref sig .tc := ⟨.hbm, 121, rfl⟩

abbrev nD : Nat := 1
abbrev τ : Topo := Topo.v7x

variable {F : FTy → Type} [FloatOps F]

class Facts₀ : Prop where
  bcast_S_S50x1024 : S_.BroadcastsInDim S50x1024 (![] : Fin 0 → Fin S50x1024.rank)
  transposes_S50x1024_S1024x50_1_0 : S50x1024.Transposes [1, 0] S1024x50
  bcast_S50_S1x50_1 : S50.BroadcastsInDim S1x50 (![1] : Fin 1 → Fin S1x50.rank)
  bcast_S1x50_S65536x50_0_1 : S1x50.BroadcastsInDim S65536x50 (![0, 1] : Fin 2 → Fin S65536x50.rank)
  bcast_S_S50 : S_.BroadcastsInDim S50 (![] : Fin 0 → Fin S50.rank)
  bcast_S_S65536x50 : S_.BroadcastsInDim S65536x50 (![] : Fin 0 → Fin S65536x50.rank)
  bcast_S_S20x50 : S_.BroadcastsInDim S20x50 (![] : Fin 0 → Fin S20x50.rank)
  transposes_S20x50_S50x20_1_0 : S20x50.Transposes [1, 0] S50x20
  bcast_S20_S1x20_1 : S20.BroadcastsInDim S1x20 (![1] : Fin 1 → Fin S1x20.rank)
  bcast_S1x20_S65536x20_0_1 : S1x20.BroadcastsInDim S65536x20 (![0, 1] : Fin 2 → Fin S65536x20.rank)
  bcast_S_S20 : S_.BroadcastsInDim S20 (![] : Fin 0 → Fin S20.rank)
  bcast_S_S65536x20 : S_.BroadcastsInDim S65536x20 (![] : Fin 0 → Fin S65536x20.rank)
  bcast_S_S10x20 : S_.BroadcastsInDim S10x20 (![] : Fin 0 → Fin S10x20.rank)
  transposes_S10x20_S20x10_1_0 : S10x20.Transposes [1, 0] S20x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  reducesTo_S65536x10_S65536_d1 : S65536x10.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x10_0_1 : S65536x1.BroadcastsInDim S65536x10 (![0, 1] : Fin 2 → Fin S65536x10.rank)
  dot_S65536x1024_S1024x50_S65536x50_1_0_0_1_n_n_wf : DotDims.WF S65536x1024 S1024x50 S65536x50 [1] [0] [0] [1] [] []
  dot_S65536x50_S50x20_S65536x20_1_0_0_1_n_n_wf : DotDims.WF S65536x50 S50x20 S65536x20 [1] [0] [0] [1] [] []
  dot_S65536x20_S20x10_S65536x10_1_0_0_1_n_n_wf : DotDims.WF S65536x20 S20x10 S65536x10 [1] [0] [0] [1] [] []

variable [Facts₀]

def dot_S65536x1024_S1024x50_S65536x50_1_0_0_1_n_n : DotDims S65536x1024 S1024x50 S65536x50 where
  lhsContracting := [1]
  rhsContracting := [0]
  lhsNonContracting := [0]
  rhsNonContracting := [1]
  lhsBatch := []
  rhsBatch := []
  wf := dot_S65536x1024_S1024x50_S65536x50_1_0_0_1_n_n_wf
def dot_S65536x50_S50x20_S65536x20_1_0_0_1_n_n : DotDims S65536x50 S50x20 S65536x20 where
  lhsContracting := [1]
  rhsContracting := [0]
  lhsNonContracting := [0]
  rhsNonContracting := [1]
  lhsBatch := []
  rhsBatch := []
  wf := dot_S65536x50_S50x20_S65536x20_1_0_0_1_n_n_wf
def dot_S65536x20_S20x10_S65536x10_1_0_0_1_n_n : DotDims S65536x20 S20x10 S65536x10 where
  lhsContracting := [1]
  rhsContracting := [0]
  lhsNonContracting := [0]
  rhsNonContracting := [1]
  lhsBatch := []
  rhsBatch := []
  wf := dot_S65536x20_S20x10_S65536x10_1_0_0_1_n_n_wf

class Facts : Prop extends Facts₀ where

variable [Facts]
-- ==== Proof.KernelBlocks.lean ====
/-
  What the region's windows hold. The input window moves with the grid: at point t its block is rows 2048·t to
  2048·t + 2047 of the input array. Every other input window stays on block (0, 0), which is its whole array: the three
  weight matrices as launched, and eleven one-row matrices that the host wrote just before the region by reshaping
  the bias and normalisation vectors, so that entry (0, j) of such a row is entry j of its vector.
-/
import proofs.«168349_j47201690583462_2_alg».proof.Proof.Gen.KernelIdeal.Value
import Idealize.ShloMosaic.Lib.ValueLayout

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The grid has 32 points. -/
theorem N_eq : cfg0.N = 32 := N_0

/-- The input and output windows' block index at point t is (t, 0). -/
theorem idx_moving : ∀ t : Fin cfg0.N, win0_0.index t (0 : Fin 2) = t.val ∧ win0_0.index t (1 : Fin 2) = 0
    ∧ win0_15.index t (0 : Fin 2) = t.val ∧ win0_15.index t (1 : Fin 2) = 0 :=
  (by decide +kernel : ∀ t : Fin grid0.N, _)

/-- Every parameter window's block index is (0, 0) at every point. -/
theorem idx_fixed : ∀ t : Fin cfg0.N,
    (win0_1.index t (0 : Fin 2) = 0 ∧ win0_1.index t (1 : Fin 2) = 0) ∧
    (win0_2.index t (0 : Fin 2) = 0 ∧ win0_2.index t (1 : Fin 2) = 0) ∧
    (win0_3.index t (0 : Fin 2) = 0 ∧ win0_3.index t (1 : Fin 2) = 0) ∧
    (win0_4.index t (0 : Fin 2) = 0 ∧ win0_4.index t (1 : Fin 2) = 0) ∧
    (win0_5.index t (0 : Fin 2) = 0 ∧ win0_5.index t (1 : Fin 2) = 0) ∧
    (win0_6.index t (0 : Fin 2) = 0 ∧ win0_6.index t (1 : Fin 2) = 0) ∧
    (win0_7.index t (0 : Fin 2) = 0 ∧ win0_7.index t (1 : Fin 2) = 0) ∧
    (win0_8.index t (0 : Fin 2) = 0 ∧ win0_8.index t (1 : Fin 2) = 0) ∧
    (win0_9.index t (0 : Fin 2) = 0 ∧ win0_9.index t (1 : Fin 2) = 0) ∧
    (win0_10.index t (0 : Fin 2) = 0 ∧ win0_10.index t (1 : Fin 2) = 0) ∧
    (win0_11.index t (0 : Fin 2) = 0 ∧ win0_11.index t (1 : Fin 2) = 0) ∧
    (win0_12.index t (0 : Fin 2) = 0 ∧ win0_12.index t (1 : Fin 2) = 0) ∧
    (win0_13.index t (0 : Fin 2) = 0 ∧ win0_13.index t (1 : Fin 2) = 0) ∧
    (win0_14.index t (0 : Fin 2) = 0 ∧ win0_14.index t (1 : Fin 2) = 0) :=
  (by decide +kernel : ∀ t : Fin grid0.N, _)

/-- The input block at point t, entry (p, k): the input array's entry (2048·t + p, k). -/
theorem input_block (c : Dev nD) (t : Fin cfg0.N) (p : Fin 2048) (k : Fin 1024) (r : Fin 65536)
    (hr : r.val = 2048 * t.val + p.val) :
    (iblk m c 0 t : Vec Ideal S2048x1024 .f32) (ix2 p k)
      = (m ((c : Thread nD τ).loc main_arg0) : S65536x1024.Idx → EReal) (ix2 r k) := by
  obtain ⟨h0, h1, -, -⟩ := idx_moving t
  unfold iblk
  rw [View.read_apply]
  show V m c main_arg0 _ = _
  rw [V_main_arg0 m c]
  have e : ((cfg0.win 0).blk t).view.emb (ix2 p k) = (ix2 r k : S65536x1024.Idx) := by
    funext a
    apply Fin.ext
    match a with
    | ⟨0, _⟩ => show win0_0.index t (0 : Fin 2) * 2048 + 1 * p.val = r.val; rw [h0, hr]; omega
    | ⟨1, _⟩ => show win0_0.index t (1 : Fin 2) * 1024 + 1 * k.val = k.val; rw [h1]; omega
  rw [e]

/-- Window 1's block at any point is the whole weight matrix as launched. -/
theorem block_1 (c : Dev nD) (t : Fin cfg0.N) (y : S50x1024.Idx) :
    (iblk m c 1 t : Vec Ideal S50x1024 .f32) y = (m ((c : Thread nD τ).loc main_arg1) : S50x1024.Idx → EReal) y := by
  obtain ⟨h0, h1⟩ := (idx_fixed t).1
  unfold iblk
  rw [View.read_apply]
  show V m c main_arg1 _ = _
  rw [V_main_arg1 m c]
  have e : ((cfg0.win 1).blk t).view.emb y = y := by
    funext a
    apply Fin.ext
    match a with
    | ⟨0, _⟩ => show win0_1.index t (0 : Fin 2) * 50 + 1 * (y 0).val = (y 0).val; rw [h0]; omega
    | ⟨1, _⟩ => show win0_1.index t (1 : Fin 2) * 1024 + 1 * (y 1).val = (y 1).val; rw [h1]; omega
  rw [e]

/-- Window 2's block at any point, entry (0, j): entry j of the vector the host reshaped into its one-row matrix. -/
theorem block_2 (c : Dev nD) (t : Fin cfg0.N) (j : Fin 50) :
    (iblk m c 2 t : Vec Ideal S1x50 .f32) (ix2 (0 : Fin 1) j) = (m ((c : Thread nD τ).loc main_arg2) : S50.Idx → EReal) (ix1 j) := by
  obtain ⟨h0, h1⟩ := (idx_fixed t).2.1
  have hV : (V m c main_v0 : S1x50.Idx → EReal) = shapeCast S1x50 (m ((c : Thread nD τ).loc main_arg2)) shapeCasts_S50_S1x50 := by
    dsimp only [Gen.V, Gen.hostOps0]; after_results; rfl
  unfold iblk
  rw [View.read_apply]
  show V m c main_v0 _ = _
  have e : ((cfg0.win 2).blk t).view.emb (ix2 (0 : Fin 1) j) = (ix2 (0 : Fin 1) j : S1x50.Idx) := by
    funext a
    apply Fin.ext
    match a with
    | ⟨0, _⟩ => show win0_2.index t (0 : Fin 2) * 1 + 1 * 0 = 0; rw [h0]
    | ⟨1, _⟩ => show win0_2.index t (1 : Fin 2) * 50 + 1 * j.val = j.val; rw [h1]; omega
  rw [e, hV]
  exact shapeCast_a_1a_apply _ shapeCasts_S50_S1x50 0 j

/-- Window 3's block at any point, entry (0, j): entry j of the vector the host reshaped into its one-row matrix. -/
theorem block_3 (c : Dev nD) (t : Fin cfg0.N) (j : Fin 50) :
    (iblk m c 3 t : Vec Ideal S1x50 .f32) (ix2 (0 : Fin 1) j) = (m ((c : Thread nD τ).loc main_arg3) : S50.Idx → EReal) (ix1 j) := by
  obtain ⟨h0, h1⟩ := (idx_fixed t).2.2.1
  have hV : (V m c main_v1 : S1x50.Idx → EReal) = shapeCast S1x50 (m ((c : Thread nD τ).loc main_arg3)) shapeCasts_S50_S1x50 := by
    dsimp only [Gen.V, Gen.hostOps0]; after_results; rfl
  unfold iblk
  rw [View.read_apply]
  show V m c main_v1 _ = _
  have e : ((cfg0.win 3).blk t).view.emb (ix2 (0 : Fin 1) j) = (ix2 (0 : Fin 1) j : S1x50.Idx) := by
    funext a
    apply Fin.ext
    match a with
    | ⟨0, _⟩ => show win0_3.index t (0 : Fin 2) * 1 + 1 * 0 = 0; rw [h0]
    | ⟨1, _⟩ => show win0_3.index t (1 : Fin 2) * 50 + 1 * j.val = j.val; rw [h1]; omega
  rw [e, hV]
  exact shapeCast_a_1a_apply _ shapeCasts_S50_S1x50 0 j

/-- Window 4's block at any point, entry (0, j): entry j of the vector the host reshaped into its one-row matrix. -/
theorem block_4 (c : Dev nD) (t : Fin cfg0.N) (j : Fin 50) :
    (iblk m c 4 t : Vec Ideal S1x50 .f32) (ix2 (0 : Fin 1) j) = (m ((c : Thread nD τ).loc main_arg4) : S50.Idx → EReal) (ix1 j) := by
  obtain ⟨h0, h1⟩ := (idx_fixed t).2.2.2.1
  have hV : (V m c main_v2 : S1x50.Idx → EReal) = shapeCast S1x50 (m ((c : Thread nD τ).loc main_arg4)) shapeCasts_S50_S1x50 := by
    dsimp only [Gen.V, Gen.hostOps0]; after_results; rfl
  unfold iblk
  rw [View.read_apply]
  show V m c main_v2 _ = _
  have e : ((cfg0.win 4).blk t).view.emb (ix2 (0 : Fin 1) j) = (ix2 (0 : Fin 1) j : S1x50.Idx) := by
    funext a
    apply Fin.ext
    match a with
    | ⟨0, _⟩ => show win0_4.index t (0 : Fin 2) * 1 + 1 * 0 = 0; rw [h0]
    | ⟨1, _⟩ => show win0_4.index t (1 : Fin 2) * 50 + 1 * j.val = j.val; rw [h1]; omega
  rw [e, hV]
  exact shapeCast_a_1a_apply _ shapeCasts_S50_S1x50 0 j

/-- Window 5's block at any point, entry (0, j): entry j of the vector the host reshaped into its one-row matrix. -/
theorem block_5 (c : Dev nD) (t : Fin cfg0.N) (j : Fin 50) :
    (iblk m c 5 t : Vec Ideal S1x50 .f32) (ix2 (0 : Fin 1) j) = (m ((c : Thread nD τ).loc main_arg5) : S50.Idx → EReal) (ix1 j) := by
  obtain ⟨h0, h1⟩ := (idx_fixed t).2.2.2.2.1
  have hV : (V m c main_v3 : S1x50.Idx → EReal) = shapeCast S1x50 (m ((c : Thread nD τ).loc main_arg5)) shapeCasts_S50_S1x50 := by
    dsimp only [Gen.V, Gen.hostOps0]; after_results; rfl
  unfold iblk
  rw [View.read_apply]
  show V m c main_v3 _ = _
  have e : ((cfg0.win 5).blk t).view.emb (ix2 (0 : Fin 1) j) = (ix2 (0 : Fin 1) j : S1x50.Idx) := by
    funext a
    apply Fin.ext
    match a with
    | ⟨0, _⟩ => show win0_5.index t (0 : Fin 2) * 1 + 1 * 0 = 0; rw [h0]
    | ⟨1, _⟩ => show win0_5.index t (1 : Fin 2) * 50 + 1 * j.val = j.val; rw [h1]; omega
  rw [e, hV]
  exact shapeCast_a_1a_apply _ shapeCasts_S50_S1x50 0 j

/-- Window 6's block at any point, entry (0, j): entry j of the vector the host reshaped into its one-row matrix. -/
theorem block_6 (c : Dev nD) (t : Fin cfg0.N) (j : Fin 50) :
    (iblk m c 6 t : Vec Ideal S1x50 .f32) (ix2 (0 : Fin 1) j) = (m ((c : Thread nD τ).loc main_arg6) : S50.Idx → EReal) (ix1 j) := by
  obtain ⟨h0, h1⟩ := (idx_fixed t).2.2.2.2.2.1
  have hV : (V m c main_v4 : S1x50.Idx → EReal) = shapeCast S1x50 (m ((c : Thread nD τ).loc main_arg6)) shapeCasts_S50_S1x50 := by
    dsimp only [Gen.V, Gen.hostOps0]; after_results; rfl
  unfold iblk
  rw [View.read_apply]
  show V m c main_v4 _ = _
  have e : ((cfg0.win 6).blk t).view.emb (ix2 (0 : Fin 1) j) = (ix2 (0 : Fin 1) j : S1x50.Idx) := by
    funext a
    apply Fin.ext
    match a with
    | ⟨0, _⟩ => show win0_6.index t (0 : Fin 2) * 1 + 1 * 0 = 0; rw [h0]
    | ⟨1, _⟩ => show win0_6.index t (1 : Fin 2) * 50 + 1 * j.val = j.val; rw [h1]; omega
  rw [e, hV]
  exact shapeCast_a_1a_apply _ shapeCasts_S50_S1x50 0 j

/-- Window 7's block at any point is the whole weight matrix as launched. -/
theorem block_7 (c : Dev nD) (t : Fin cfg0.N) (y : S20x50.Idx) :
    (iblk m c 7 t : Vec Ideal S20x50 .f32) y = (m ((c : Thread nD τ).loc main_arg7) : S20x50.Idx → EReal) y := by
  obtain ⟨h0, h1⟩ := (idx_fixed t).2.2.2.2.2.2.1
  unfold iblk
  rw [View.read_apply]
  show V m c main_arg7 _ = _
  rw [V_main_arg7 m c]
  have e : ((cfg0.win 7).blk t).view.emb y = y := by
    funext a
    apply Fin.ext
    match a with
    | ⟨0, _⟩ => show win0_7.index t (0 : Fin 2) * 20 + 1 * (y 0).val = (y 0).val; rw [h0]; omega
    | ⟨1, _⟩ => show win0_7.index t (1 : Fin 2) * 50 + 1 * (y 1).val = (y 1).val; rw [h1]; omega
  rw [e]

/-- Window 8's block at any point, entry (0, j): entry j of the vector the host reshaped into its one-row matrix. -/
theorem block_8 (c : Dev nD) (t : Fin cfg0.N) (j : Fin 20) :
    (iblk m c 8 t : Vec Ideal S1x20 .f32) (ix2 (0 : Fin 1) j) = (m ((c : Thread nD τ).loc main_arg8) : S20.Idx → EReal) (ix1 j) := by
  obtain ⟨h0, h1⟩ := (idx_fixed t).2.2.2.2.2.2.2.1
  have hV : (V m c main_v5 : S1x20.Idx → EReal) = shapeCast S1x20 (m ((c : Thread nD τ).loc main_arg8)) shapeCasts_S20_S1x20 := by
    dsimp only [Gen.V, Gen.hostOps0]; after_results; rfl
  unfold iblk
  rw [View.read_apply]
  show V m c main_v5 _ = _
  have e : ((cfg0.win 8).blk t).view.emb (ix2 (0 : Fin 1) j) = (ix2 (0 : Fin 1) j : S1x20.Idx) := by
    funext a
    apply Fin.ext
    match a with
    | ⟨0, _⟩ => show win0_8.index t (0 : Fin 2) * 1 + 1 * 0 = 0; rw [h0]
    | ⟨1, _⟩ => show win0_8.index t (1 : Fin 2) * 20 + 1 * j.val = j.val; rw [h1]; omega
  rw [e, hV]
  exact shapeCast_a_1a_apply _ shapeCasts_S20_S1x20 0 j

/-- Window 9's block at any point, entry (0, j): entry j of the vector the host reshaped into its one-row matrix. -/
theorem block_9 (c : Dev nD) (t : Fin cfg0.N) (j : Fin 20) :
    (iblk m c 9 t : Vec Ideal S1x20 .f32) (ix2 (0 : Fin 1) j) = (m ((c : Thread nD τ).loc main_arg9) : S20.Idx → EReal) (ix1 j) := by
  obtain ⟨h0, h1⟩ := (idx_fixed t).2.2.2.2.2.2.2.2.1
  have hV : (V m c main_v6 : S1x20.Idx → EReal) = shapeCast S1x20 (m ((c : Thread nD τ).loc main_arg9)) shapeCasts_S20_S1x20 := by
    dsimp only [Gen.V, Gen.hostOps0]; after_results; rfl
  unfold iblk
  rw [View.read_apply]
  show V m c main_v6 _ = _
  have e : ((cfg0.win 9).blk t).view.emb (ix2 (0 : Fin 1) j) = (ix2 (0 : Fin 1) j : S1x20.Idx) := by
    funext a
    apply Fin.ext
    match a with
    | ⟨0, _⟩ => show win0_9.index t (0 : Fin 2) * 1 + 1 * 0 = 0; rw [h0]
    | ⟨1, _⟩ => show win0_9.index t (1 : Fin 2) * 20 + 1 * j.val = j.val; rw [h1]; omega
  rw [e, hV]
  exact shapeCast_a_1a_apply _ shapeCasts_S20_S1x20 0 j

/-- Window 10's block at any point, entry (0, j): entry j of the vector the host reshaped into its one-row matrix. -/
theorem block_10 (c : Dev nD) (t : Fin cfg0.N) (j : Fin 20) :
    (iblk m c 10 t : Vec Ideal S1x20 .f32) (ix2 (0 : Fin 1) j) = (m ((c : Thread nD τ).loc main_arg10) : S20.Idx → EReal) (ix1 j) := by
  obtain ⟨h0, h1⟩ := (idx_fixed t).2.2.2.2.2.2.2.2.2.1
  have hV : (V m c main_v7 : S1x20.Idx → EReal) = shapeCast S1x20 (m ((c : Thread nD τ).loc main_arg10)) shapeCasts_S20_S1x20 := by
    dsimp only [Gen.V, Gen.hostOps0]; after_results; rfl
  unfold iblk
  rw [View.read_apply]
  show V m c main_v7 _ = _
  have e : ((cfg0.win 10).blk t).view.emb (ix2 (0 : Fin 1) j) = (ix2 (0 : Fin 1) j : S1x20.Idx) := by
    funext a
    apply Fin.ext
    match a with
    | ⟨0, _⟩ => show win0_10.index t (0 : Fin 2) * 1 + 1 * 0 = 0; rw [h0]
    | ⟨1, _⟩ => show win0_10.index t (1 : Fin 2) * 20 + 1 * j.val = j.val; rw [h1]; omega
  rw [e, hV]
  exact shapeCast_a_1a_apply _ shapeCasts_S20_S1x20 0 j

/-- Window 11's block at any point, entry (0, j): entry j of the vector the host reshaped into its one-row matrix. -/
theorem block_11 (c : Dev nD) (t : Fin cfg0.N) (j : Fin 20) :
    (iblk m c 11 t : Vec Ideal S1x20 .f32) (ix2 (0 : Fin 1) j) = (m ((c : Thread nD τ).loc main_arg11) : S20.Idx → EReal) (ix1 j) := by
  obtain ⟨h0, h1⟩ := (idx_fixed t).2.2.2.2.2.2.2.2.2.2.1
  have hV : (V m c main_v8 : S1x20.Idx → EReal) = shapeCast S1x20 (m ((c : Thread nD τ).loc main_arg11)) shapeCasts_S20_S1x20 := by
    dsimp only [Gen.V, Gen.hostOps0]; after_results; rfl
  unfold iblk
  rw [View.read_apply]
  show V m c main_v8 _ = _
  have e : ((cfg0.win 11).blk t).view.emb (ix2 (0 : Fin 1) j) = (ix2 (0 : Fin 1) j : S1x20.Idx) := by
    funext a
    apply Fin.ext
    match a with
    | ⟨0, _⟩ => show win0_11.index t (0 : Fin 2) * 1 + 1 * 0 = 0; rw [h0]
    | ⟨1, _⟩ => show win0_11.index t (1 : Fin 2) * 20 + 1 * j.val = j.val; rw [h1]; omega
  rw [e, hV]
  exact shapeCast_a_1a_apply _ shapeCasts_S20_S1x20 0 j

/-- Window 12's block at any point, entry (0, j): entry j of the vector the host reshaped into its one-row matrix. -/
theorem block_12 (c : Dev nD) (t : Fin cfg0.N) (j : Fin 20) :
    (iblk m c 12 t : Vec Ideal S1x20 .f32) (ix2 (0 : Fin 1) j) = (m ((c : Thread nD τ).loc main_arg12) : S20.Idx → EReal) (ix1 j) := by
  obtain ⟨h0, h1⟩ := (idx_fixed t).2.2.2.2.2.2.2.2.2.2.2.1
  have hV : (V m c main_v9 : S1x20.Idx → EReal) = shapeCast S1x20 (m ((c : Thread nD τ).loc main_arg12)) shapeCasts_S20_S1x20 := by
    dsimp only [Gen.V, Gen.hostOps0]; after_results; rfl
  unfold iblk
  rw [View.read_apply]
  show V m c main_v9 _ = _
  have e : ((cfg0.win 12).blk t).view.emb (ix2 (0 : Fin 1) j) = (ix2 (0 : Fin 1) j : S1x20.Idx) := by
    funext a
    apply Fin.ext
    match a with
    | ⟨0, _⟩ => show win0_12.index t (0 : Fin 2) * 1 + 1 * 0 = 0; rw [h0]
    | ⟨1, _⟩ => show win0_12.index t (1 : Fin 2) * 20 + 1 * j.val = j.val; rw [h1]; omega
  rw [e, hV]
  exact shapeCast_a_1a_apply _ shapeCasts_S20_S1x20 0 j

/-- Window 13's block at any point is the whole weight matrix as launched. -/
theorem block_13 (c : Dev nD) (t : Fin cfg0.N) (y : S10x20.Idx) :
    (iblk m c 13 t : Vec Ideal S10x20 .f32) y = (m ((c : Thread nD τ).loc main_arg13) : S10x20.Idx → EReal) y := by
  obtain ⟨h0, h1⟩ := (idx_fixed t).2.2.2.2.2.2.2.2.2.2.2.2.1
  unfold iblk
  rw [View.read_apply]
  show V m c main_arg13 _ = _
  rw [V_main_arg13 m c]
  have e : ((cfg0.win 13).blk t).view.emb y = y := by
    funext a
    apply Fin.ext
    match a with
    | ⟨0, _⟩ => show win0_13.index t (0 : Fin 2) * 10 + 1 * (y 0).val = (y 0).val; rw [h0]; omega
    | ⟨1, _⟩ => show win0_13.index t (1 : Fin 2) * 20 + 1 * (y 1).val = (y 1).val; rw [h1]; omega
  rw [e]

/-- Window 14's block at any point, entry (0, j): entry j of the vector the host reshaped into its one-row matrix. -/
theorem block_14 (c : Dev nD) (t : Fin cfg0.N) (j : Fin 10) :
    (iblk m c 14 t : Vec Ideal S1x10 .f32) (ix2 (0 : Fin 1) j) = (m ((c : Thread nD τ).loc main_arg14) : S10.Idx → EReal) (ix1 j) := by
  obtain ⟨h0, h1⟩ := (idx_fixed t).2.2.2.2.2.2.2.2.2.2.2.2.2
  have hV : (V m c main_v10 : S1x10.Idx → EReal) = shapeCast S1x10 (m ((c : Thread nD τ).loc main_arg14)) shapeCasts_S10_S1x10 := by
    dsimp only [Gen.V, Gen.hostOps0]; after_results; rfl
  unfold iblk
  rw [View.read_apply]
  show V m c main_v10 _ = _
  have e : ((cfg0.win 14).blk t).view.emb (ix2 (0 : Fin 1) j) = (ix2 (0 : Fin 1) j : S1x10.Idx) := by
    funext a
    apply Fin.ext
    match a with
    | ⟨0, _⟩ => show win0_14.index t (0 : Fin 2) * 1 + 1 * 0 = 0; rw [h0]
    | ⟨1, _⟩ => show win0_14.index t (1 : Fin 2) * 10 + 1 * j.val = j.val; rw [h1]; omega
  rw [e, hV]
  exact shapeCast_a_1a_apply _ shapeCasts_S10_S1x10 0 j

end Cert.KernelIdeal.Blocks
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.LibSignNet.lean ====
/-
  A binarised multi-layer perceptron with batch normalisation, layer by layer, as functions of ONE input row.

  A weight or an activation is binarised by its sign: an entry at least zero becomes 1, any other entry −1.
  A hidden layer multiplies the incoming row by the transpose of the binarised weight matrix, adds the bias,
  normalises with a running mean and a running variance (the variance raised by a small floor before its
  reciprocal square root), scales and shifts, and binarises the result. A last layer is the same product plus
  bias with no normalisation; the logarithm of the softmax of its logits takes a chosen value (the row's
  largest logit) away from every logit and then the logarithm of the sum of the exponentials of the differences.

  Everything is over the extended reals and over families indexed by `Fin`, for any widths; no array shape and
  no program appears. An output row depends on one input row and on the parameters only.
-/
import Idealize.ShloMosaic.PureOps.Ideal
import Idealize.ShloMosaic.Lib.ValueIdx

noncomputable section

namespace Cert.LibSignNet

open Idealize.ShloMosaic
open scoped BigOperators

/-- The sign as ±1: 1 where the entry is at least zero, −1 elsewhere (the three words are f32's 0, 1 and −1). -/
def sgn (x : EReal) : EReal :=
  Scalar.select (Ideal.cmp .oge x (Ideal.ofBits .f32 0x00000000#32))
    (Ideal.ofBits .f32 0x3F800000#32) (Ideal.ofBits .f32 0xBF800000#32)

/-- Unit `j` of a layer before its sign: the row times column `j` of the binarised weights' transpose, plus the
    bias, minus the running mean, times the scale, times the reciprocal square root of the running variance
    raised by `floor`, plus the shift. -/
def norm {d n : Nat} (floor : EReal) (h : Fin d → EReal) (W : Fin n → Fin d → EReal) (b g be mu var : Fin n → EReal)
    (j : Fin n) : EReal :=
  g j * ((∑ c : Fin d, h c * sgn (W j c)) + b j - mu j) * Ideal.rsqrt (var j + floor) + be j

/-- A hidden layer: the sign of each normalised unit. -/
def hidden {d n : Nat} (floor : EReal) (h : Fin d → EReal) (W : Fin n → Fin d → EReal) (b g be mu var : Fin n → EReal)
    (j : Fin n) : EReal :=
  sgn (norm floor h W b g be mu var j)

/-- Logit `q` of a last layer: the row times column `q` of the binarised weights' transpose, plus the bias. -/
def logit {d n : Nat} (h : Fin d → EReal) (W : Fin n → Fin d → EReal) (b : Fin n → EReal) (q : Fin n) : EReal :=
  (∑ k : Fin d, h k * sgn (W q k)) + b q

/-- The logarithm of the softmax of a row of logits, entry `q`, with `top` taken away from every logit first. -/
def logSoftmax {n : Nat} (top : EReal) (z : Fin n → EReal) (q : Fin n) : EReal :=
  (z q - top) - Ideal.log (∑ k : Fin n, Ideal.exp (z k - top))

/-- Taking the larger of negative infinity and the largest logit changes nothing: negative infinity is the least
    extended real. -/
theorem max_bot_sup {n : Nat} (z : Fin n → EReal) : max (⊥ : EReal) (Finset.univ.sup z) = Finset.univ.sup z :=
  max_eq_right bot_le

end Cert.LibSignNet
-- ==== Proof.LibSignLayer.lean ====
/-
  The layers of a binarised perceptron as a kernel's vector operations compute them on a block of rows, read at one
  entry, at the ideal values. The block's row p goes through each operation on its own: a one-row parameter
  matrix spread over the rows gives every row the same entry; the product with the sign-binarised weights,
  contracting the second axis of both factors, is at (p, j) the sum over c of the row's entry c times the sign of
  weight (j, c); a reduction along the row that keeps its axis gives every column of row p the row's value.
  So a normalised unit, a logit and the logarithm of the softmax read at (p, ·) are the functions of row p that
  LibSignNet.lean defines. Stated for any extents: a rows, d inputs, n units.
-/
import Idealize.ShloMosaic.Lib.ValueLayout
import Idealize.ShloMosaic.PureOps.Ideal.Laws
import proofs.«168349_j47201690583462_2_alg».proof.Proof.LibGram
import proofs.«168349_j47201690583462_2_alg».proof.Proof.LibRowReduce
import proofs.«168349_j47201690583462_2_alg».proof.Proof.LibKeepdims
import proofs.«168349_j47201690583462_2_alg».proof.Proof.LibSignNet

noncomputable section

namespace Cert.LibSignLayer

open Idealize.ShloMosaic Idealize.ShloMosaic.ValueIdx Cert.LibSignNet
open scoped BigOperators

variable {a d n : Nat}

/-- A one-row matrix, cast to its own shape and spread over `a` rows, reads at (p, j) the row's entry j. -/
theorem rowSpread_apply {α : Type} (v : (⟨2, ![1, n]⟩ : Shape).Idx → α)
    (hc : (⟨2, ![1, n]⟩ : Shape).ShapeCasts ⟨2, ![1, n]⟩) (hb : (⟨2, ![1, n]⟩ : Shape).Broadcasts ⟨2, ![a, n]⟩)
    (p : Fin a) (j : Fin n) :
    broadcastTo ⟨2, ![a, n]⟩ (shapeCast ⟨2, ![1, n]⟩ v hc) hb (ix2 p j) = v (ix2 (0 : Fin 1) j) := by
  rw [shapeCast_self]
  exact broadcastTo_1b_ab_apply v hb p j

/-- The weights binarised by a comparison with zero and a choice between 1 and −1, then rounded to bf16 (no change at
    the ideal values): at every index the sign of the weight. -/
theorem signWeights_apply {s : Shape} (W : FVec Ideal s .f32) (hlt : FTy.bits .bf16 < FTy.bits .f32) (i : s.Idx) :
    truncf .bf16 (select (cmpf .oge W (broadcast s (Scalar.ofBits (F := Ideal) .f32 0x00000000#32)))
        (broadcast s (Scalar.ofBits (F := Ideal) .f32 0x3F800000#32))
        (broadcast s (Scalar.ofBits (F := Ideal) .f32 0xBF800000#32))) hlt i = sgn (W i) := rfl

/-- The product of a block of rows with the transpose of the binarised weights, into a zero accumulator, at (p, j):
    the sum over the inputs of row p's entry times the sign of weight (j, ·). -/
theorem signProduct_apply {ψ : FTy} (w : DotDims.WF ⟨2, ![a, d]⟩ ⟨2, ![n, d]⟩ ⟨2, ![a, n]⟩ [1] [1] [0] [0] [] [])
    (X : FVec Ideal ⟨2, ![a, d]⟩ ψ) (Wm : FVec Ideal ⟨2, ![n, d]⟩ .f32) (hlt : FTy.bits .bf16 < FTy.bits .f32)
    (p : Fin a) (j : Fin n) :
    matmul (LibGram.dims w) none X
        (truncf .bf16 (select (cmpf .oge Wm (broadcast ⟨2, ![n, d]⟩ (Scalar.ofBits (F := Ideal) .f32 0x00000000#32)))
          (broadcast ⟨2, ![n, d]⟩ (Scalar.ofBits (F := Ideal) .f32 0x3F800000#32))
          (broadcast ⟨2, ![n, d]⟩ (Scalar.ofBits (F := Ideal) .f32 0xBF800000#32))) hlt)
        (constant (F := Ideal) ⟨2, ![a, n]⟩ .f32 0x00000000#32) (ix2 p j)
      = ∑ c : Fin d, X (ix2 p c) * sgn (Wm (ix2 j c)) :=
  (LibGram.matmul_zero_apply w none X _ p j).trans (Finset.sum_congr rfl fun _ _ => rfl)

/-- A normalised unit as the kernel computes it on a block — scale times (product plus bias minus mean), times the
    reciprocal square root of the floored variance, plus shift, every parameter a one-row matrix spread over the
    rows — read at (p, j): unit j of row p. -/
theorem norm_apply {ψ : FTy} (w : DotDims.WF ⟨2, ![a, d]⟩ ⟨2, ![n, d]⟩ ⟨2, ![a, n]⟩ [1] [1] [0] [0] [] [])
    (X : FVec Ideal ⟨2, ![a, d]⟩ ψ) (Wm : FVec Ideal ⟨2, ![n, d]⟩ .f32) (b g mu var be : FVec Ideal ⟨2, ![1, n]⟩ .f32)
    (hlt : FTy.bits .bf16 < FTy.bits .f32) (hc : (⟨2, ![1, n]⟩ : Shape).ShapeCasts ⟨2, ![1, n]⟩)
    (hb : (⟨2, ![1, n]⟩ : Shape).Broadcasts ⟨2, ![a, n]⟩) (fl : BitVec 32) (p : Fin a) (j : Fin n) :
    addf (mulf (mulf (broadcastTo ⟨2, ![a, n]⟩ (shapeCast ⟨2, ![1, n]⟩ g hc) hb)
          (subf (addf (matmul (LibGram.dims w) none X
              (truncf .bf16 (select (cmpf .oge Wm (broadcast ⟨2, ![n, d]⟩ (Scalar.ofBits (F := Ideal) .f32 0x00000000#32)))
                (broadcast ⟨2, ![n, d]⟩ (Scalar.ofBits (F := Ideal) .f32 0x3F800000#32))
                (broadcast ⟨2, ![n, d]⟩ (Scalar.ofBits (F := Ideal) .f32 0xBF800000#32))) hlt)
              (constant (F := Ideal) ⟨2, ![a, n]⟩ .f32 0x00000000#32))
            (broadcastTo ⟨2, ![a, n]⟩ (shapeCast ⟨2, ![1, n]⟩ b hc) hb))
            (broadcastTo ⟨2, ![a, n]⟩ (shapeCast ⟨2, ![1, n]⟩ mu hc) hb)))
        (broadcastTo ⟨2, ![a, n]⟩
          (rsqrt (addf (shapeCast ⟨2, ![1, n]⟩ var hc) (broadcast ⟨2, ![1, n]⟩ (Scalar.ofBits (F := Ideal) .f32 fl)))) hb))
      (broadcastTo ⟨2, ![a, n]⟩ (shapeCast ⟨2, ![1, n]⟩ be hc) hb) (ix2 p j)
      = norm (Ideal.ofBits .f32 fl) (fun c => X (ix2 p c)) (fun j c => Wm (ix2 j c)) (fun j => b (ix2 (0 : Fin 1) j))
          (fun j => g (ix2 (0 : Fin 1) j)) (fun j => be (ix2 (0 : Fin 1) j)) (fun j => mu (ix2 (0 : Fin 1) j))
          (fun j => var (ix2 (0 : Fin 1) j)) j := by
  simp only [addf_apply, mulf_apply, subf_apply]
  rw [rowSpread_apply g hc hb p j, rowSpread_apply b hc hb p j, rowSpread_apply mu hc hb p j,
    rowSpread_apply be hc hb p j, signProduct_apply w X Wm hlt p j, broadcastTo_1b_ab_apply _ hb p j,
    shapeCast_self]
  rfl

/-- A logit as the kernel computes it on a block — the product with the binarised weights plus the bias row spread
    over the rows — read at (p, q): logit q of row p. -/
theorem logit_apply {ψ : FTy} (w : DotDims.WF ⟨2, ![a, d]⟩ ⟨2, ![n, d]⟩ ⟨2, ![a, n]⟩ [1] [1] [0] [0] [] [])
    (X : FVec Ideal ⟨2, ![a, d]⟩ ψ) (Wm : FVec Ideal ⟨2, ![n, d]⟩ .f32) (b : FVec Ideal ⟨2, ![1, n]⟩ .f32)
    (hlt : FTy.bits .bf16 < FTy.bits .f32) (hc : (⟨2, ![1, n]⟩ : Shape).ShapeCasts ⟨2, ![1, n]⟩)
    (hb : (⟨2, ![1, n]⟩ : Shape).Broadcasts ⟨2, ![a, n]⟩) (p : Fin a) (q : Fin n) :
    addf (matmul (LibGram.dims w) none X
        (truncf .bf16 (select (cmpf .oge Wm (broadcast ⟨2, ![n, d]⟩ (Scalar.ofBits (F := Ideal) .f32 0x00000000#32)))
          (broadcast ⟨2, ![n, d]⟩ (Scalar.ofBits (F := Ideal) .f32 0x3F800000#32))
          (broadcast ⟨2, ![n, d]⟩ (Scalar.ofBits (F := Ideal) .f32 0xBF800000#32))) hlt)
        (constant (F := Ideal) ⟨2, ![a, n]⟩ .f32 0x00000000#32))
      (broadcastTo ⟨2, ![a, n]⟩ (shapeCast ⟨2, ![1, n]⟩ b hc) hb) (ix2 p q)
      = logit (fun k => X (ix2 p k)) (fun q k => Wm (ix2 q k)) (fun q => b (ix2 (0 : Fin 1) q)) q := by
  simp only [addf_apply]
  rw [rowSpread_apply b hc hb p q, signProduct_apply w X Wm hlt p q]
  rfl

/-- The logarithm of the softmax as the kernel computes it on a block of logits — the row maximum from negative
    infinity, kept as a column and spread back, taken away; the exponentials summed along the row from zero, kept
    as a column, their logarithm spread back and taken away — read at (p, q): entry q of the logarithm of the
    softmax of row p with the row's largest logit taken away. -/
theorem logSoftmax_apply (y : FVec Ideal ⟨2, ![a, n]⟩ .f32) (h : (⟨2, ![a, n]⟩ : Shape).Reduces [1] ⟨1, ![a]⟩)
    (hφ : FKind.Formats .f32) (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (q : Fin n) :
    subf (subf y (broadcastTo ⟨2, ![a, n]⟩ (shapeCast ⟨2, ![a, 1]⟩
            (multiReduction .maximumf [1] ⟨1, ![a]⟩ y 0xFF800000#32 h hφ hmax) hc) hb))
      (broadcastTo ⟨2, ![a, n]⟩ (log (shapeCast ⟨2, ![a, 1]⟩
        (multiReduction .add [1] ⟨1, ![a]⟩
          (exp (subf y (broadcastTo ⟨2, ![a, n]⟩ (shapeCast ⟨2, ![a, 1]⟩
            (multiReduction .maximumf [1] ⟨1, ![a]⟩ y 0xFF800000#32 h hφ hmax) hc) hb)))
          0x00000000#32 h hφ hadd) hc)) hb) (ix2 p q)
      = logSoftmax (Finset.univ.sup fun k => y (ix2 p k)) (fun k => y (ix2 p k)) q := by
  have hshift : ∀ k : Fin n,
      subf y (broadcastTo ⟨2, ![a, n]⟩ (shapeCast ⟨2, ![a, 1]⟩
        (multiReduction .maximumf [1] ⟨1, ![a]⟩ y 0xFF800000#32 h hφ hmax) hc) hb) (ix2 p k)
        = y (ix2 p k) - Finset.univ.sup fun k => y (ix2 p k) := fun k => by
    simp only [subf_apply]
    rw [broadcastTo_shapeCast_column_apply _ hc hb p k, LibRowReduce.rowMax_apply y h hφ hmax p]
  simp only [subf_apply] at hshift ⊢
  rw [hshift q, broadcastTo_a1_ab_apply _ hb p q]
  show _ - Ideal.log (shapeCast ⟨2, ![a, 1]⟩ _ hc (ix2 p (0 : Fin 1))) = _
  rw [shapeCast_a_a1_apply _ hc p 0, LibRowReduce.rowSum_apply _ h hφ hadd p]
  unfold logSoftmax
  refine congrArg (fun s => _ - Ideal.log s) (Finset.sum_congr rfl fun k _ => ?_)
  show Ideal.exp _ = _
  exact congrArg Ideal.exp (hshift k)

end Cert.LibSignLayer
-- ==== Proof.Spec.lean ====
/-
  The network this kernel and its reference both compute, on one row of 1024 inputs: two hidden binarised
  layers of 50 and 20 units with batch normalisation, ten logits, and the logarithm of their softmax with the
  largest logit taken away. The variance floor is f32's nearest value to 1/10000, the same word in both programs.
-/
import proofs.«168349_j47201690583462_2_alg».proof.Proof.LibSignNet
import Idealize.ShloMosaic.Lib.ValueIdx

noncomputable section

namespace Cert.Spec

open Idealize.ShloMosaic Idealize.ShloMosaic.ValueIdx Cert.LibSignNet

/-- The floor added to a running variance before its reciprocal square root. -/
def varFloor : EReal := Ideal.ofBits .f32 0x38D1B717#32

/-- The ten logits of one input row. -/
def logits (x : Fin 1024 → EReal)
    (W1 : Fin 50 → Fin 1024 → EReal) (b1 g1 be1 m1 v1 : Fin 50 → EReal)
    (W2 : Fin 20 → Fin 50 → EReal) (b2 g2 be2 m2 v2 : Fin 20 → EReal)
    (W5 : Fin 10 → Fin 20 → EReal) (b5 : Fin 10 → EReal) : Fin 10 → EReal :=
  logit (hidden varFloor (hidden varFloor x W1 b1 g1 be1 m1 v1) W2 b2 g2 be2 m2 v2) W5 b5

/-- Output entry `q` of one input row. -/
def row (x : Fin 1024 → EReal)
    (W1 : Fin 50 → Fin 1024 → EReal) (b1 g1 be1 m1 v1 : Fin 50 → EReal)
    (W2 : Fin 20 → Fin 50 → EReal) (b2 g2 be2 m2 v2 : Fin 20 → EReal)
    (W5 : Fin 10 → Fin 20 → EReal) (b5 : Fin 10 → EReal) (q : Fin 10) : EReal :=
  logSoftmax (Finset.univ.sup (logits x W1 b1 g1 be1 m1 v1 W2 b2 g2 be2 m2 v2 W5 b5))
    (logits x W1 b1 g1 be1 m1 v1 W2 b2 g2 be2 m2 v2 W5 b5) q

/-- Output entry (r, q) from the fifteen argument arrays: the network on row `r` of the input array, each weight
    matrix read by its rows and each bias and normalisation vector read along its one axis. -/
def out (A0 : (⟨2, ![65536, 1024]⟩ : Shape).Idx → EReal) (A1 : (⟨2, ![50, 1024]⟩ : Shape).Idx → EReal)
    (A2 A3 A4 A5 A6 : (⟨1, ![50]⟩ : Shape).Idx → EReal) (A7 : (⟨2, ![20, 50]⟩ : Shape).Idx → EReal)
    (A8 A9 A10 A11 A12 : (⟨1, ![20]⟩ : Shape).Idx → EReal) (A13 : (⟨2, ![10, 20]⟩ : Shape).Idx → EReal)
    (A14 : (⟨1, ![10]⟩ : Shape).Idx → EReal) (r : Fin 65536) (q : Fin 10) : EReal :=
  row (fun c => A0 (ix2 r c)) (fun j c => A1 (ix2 j c))
    (fun j => A2 (ix1 j)) (fun j => A3 (ix1 j)) (fun j => A4 (ix1 j)) (fun j => A5 (ix1 j)) (fun j => A6 (ix1 j))
    (fun k j => A7 (ix2 k j))
    (fun k => A8 (ix1 k)) (fun k => A9 (ix1 k)) (fun k => A10 (ix1 k)) (fun k => A11 (ix1 k)) (fun k => A12 (ix1 k))
    (fun q k => A13 (ix2 q k)) (fun q => A14 (ix1 q)) q

/-- The output array: the network applied to every row of the input array. -/
def whole (A0 : (⟨2, ![65536, 1024]⟩ : Shape).Idx → EReal) (A1 : (⟨2, ![50, 1024]⟩ : Shape).Idx → EReal)
    (A2 A3 A4 A5 A6 : (⟨1, ![50]⟩ : Shape).Idx → EReal) (A7 : (⟨2, ![20, 50]⟩ : Shape).Idx → EReal)
    (A8 A9 A10 A11 A12 : (⟨1, ![20]⟩ : Shape).Idx → EReal) (A13 : (⟨2, ![10, 20]⟩ : Shape).Idx → EReal)
    (A14 : (⟨1, ![10]⟩ : Shape).Idx → EReal) : (⟨2, ![65536, 10]⟩ : Shape).Idx → EReal :=
  fun i => out A0 A1 A2 A3 A4 A5 A6 A7 A8 A9 A10 A11 A12 A13 A14 (i 0) (i 1)

end Cert.Spec
-- ==== Proof.KernelRow.lean ====
/-
  The kernel's body on one block of 2048 rows, read at an entry: what it stores at (p, q) is entry q of the network's
  output for the block's row p. The body's arithmetic comes in three pieces — the first layer up to its comparison with
  zero, the second layer, and the last layer with the logarithm of the softmax — and each, read at row p, is the
  corresponding layer of LibSignNet.lean applied to row p of the piece before it. The parameters arrive as one-row
  matrices; every row of the block sees the same entries of them.
-/
import proofs.«168349_j47201690583462_2_alg».proof.Proof.Gen.KernelIdeal.Skeleton
import proofs.«168349_j47201690583462_2_alg».proof.Proof.LibSignLayer
import proofs.«168349_j47201690583462_2_alg».proof.Proof.Spec

noncomputable section

namespace Cert.KernelIdeal.Rows

open Cert.KernelIdeal Cert.KernelIdeal.Gen Idealize.ShloMosaic Idealize.ShloMosaic.ValueIdx
open Cert.LibSignNet Cert.LibSignLayer

/-- The first layer's comparison bit at (p, j): whether unit j of row p, normalised, is at least zero. -/
theorem firstBit_apply (v0 : Vec Ideal S2048x1024 .f32) (v2 : Vec Ideal S50x1024 .f32)
    (v10 v14 v16 v22 v29 : Vec Ideal S1x50 .f32) (p : Fin 2048) (j : Fin 50) :
    k0_pay2 v0 v2 v10 v14 v16 v22 v29 (ix2 p j)
      = Ideal.cmp .oge (norm Spec.varFloor (fun c => v0 (ix2 p c)) (fun j c => v2 (ix2 j c))
          (fun j => v10 (ix2 (0 : Fin 1) j)) (fun j => v14 (ix2 (0 : Fin 1) j)) (fun j => v29 (ix2 (0 : Fin 1) j))
          (fun j => v16 (ix2 (0 : Fin 1) j)) (fun j => v22 (ix2 (0 : Fin 1) j)) j) (Ideal.ofBits .f32 0x00000000#32) := by
  unfold k0_pay2
  exact congrArg (fun x => Ideal.cmp .oge x (Ideal.ofBits .f32 0x00000000#32))
    (norm_apply dot_S2048x1024_S50x1024_S2048x50_1_1_0_0_n_n_wf (truncf .bf16 v0 bitsLt_bf16_f32) v2 v10 v14 v16 v22 v29
      bitsLt_bf16_f32 shapeCasts_S1x50_S1x50 broadcasts_S1x50_S2048x50 0x38D1B717#32 p j)

/-- So the first hidden layer, the choice between 1 and −1 on that bit, at (p, j): hidden unit j of row p. -/
theorem firstHidden_apply (v0 : Vec Ideal S2048x1024 .f32) (v2 : Vec Ideal S50x1024 .f32)
    (v10 v14 v16 v22 v29 : Vec Ideal S1x50 .f32) (p : Fin 2048) (j : Fin 50) :
    Scalar.select (k0_pay2 v0 v2 v10 v14 v16 v22 v29 (ix2 p j)) (k0_pay3 (F := Ideal) (ix2 p j)) (k0_pay4 (F := Ideal) (ix2 p j))
      = hidden Spec.varFloor (fun c => v0 (ix2 p c)) (fun j c => v2 (ix2 j c))
          (fun j => v10 (ix2 (0 : Fin 1) j)) (fun j => v14 (ix2 (0 : Fin 1) j)) (fun j => v29 (ix2 (0 : Fin 1) j))
          (fun j => v16 (ix2 (0 : Fin 1) j)) (fun j => v22 (ix2 (0 : Fin 1) j)) j := by
  rw [firstBit_apply]
  rfl

/-- The second layer at (p, k), from the block of first-layer bits and the two splats it chooses between: hidden unit k
    of the row whose entries are those choices. -/
theorem secondHidden_apply (v34 : IVec S2048x50 1) (v35 v36 : FVec Ideal S2048x50 .f32) (v39 : Vec Ideal S20x50 .f32)
    (v47 v51 v53 v59 v66 : Vec Ideal S1x20 .f32) (p : Fin 2048) (k : Fin 20) :
    k0_pay5 v34 v35 v36 v39 v47 v51 v53 v59 v66 (ix2 p k)
      = hidden Spec.varFloor (fun j => Scalar.select (v34 (ix2 p j)) (v35 (ix2 p j)) (v36 (ix2 p j))) (fun k j => v39 (ix2 k j))
          (fun k => v47 (ix2 (0 : Fin 1) k)) (fun k => v51 (ix2 (0 : Fin 1) k)) (fun k => v66 (ix2 (0 : Fin 1) k))
          (fun k => v53 (ix2 (0 : Fin 1) k)) (fun k => v59 (ix2 (0 : Fin 1) k)) k := by
  unfold k0_pay5
  exact congrArg sgn
    (norm_apply dot_S2048x50_S20x50_S2048x20_1_1_0_0_n_n_wf (truncf .bf16 (select v34 v35 v36) bitsLt_bf16_f32) v39 v47 v51 v53 v59 v66
      bitsLt_bf16_f32 shapeCasts_S1x20_S1x20 broadcasts_S1x20_S2048x20 0x38D1B717#32 p k)

/-- The last piece at (p, q), from the block of second-layer activations: entry q of the logarithm of the softmax of
    row p's ten logits, the largest logit taken away. -/
theorem output_apply (v75 : FVec Ideal S2048x20 .bf16) (v76 : Vec Ideal S10x20 .f32) (v84 : Vec Ideal S1x10 .f32)
    (p : Fin 2048) (q : Fin 10) :
    k0_pay1 v75 v76 v84 (ix2 p q)
      = logSoftmax
          (Finset.univ.sup (logit (fun k => v75 (ix2 p k)) (fun q k => v76 (ix2 q k)) (fun q => v84 (ix2 (0 : Fin 1) q))))
          (logit (fun k => v75 (ix2 p k)) (fun q k => v76 (ix2 q k)) (fun q => v84 (ix2 (0 : Fin 1) q))) q := by
  unfold k0_pay1
  refine (logSoftmax_apply _ reduces_S2048x10_S2048 (.inl rfl) rfl rfl shapeCasts_S2048_S2048x1 broadcasts_S2048x1_S2048x10 p q).trans ?_
  have hz : ∀ r : Fin 10,
      addf (matmul dot_S2048x20_S10x20_S2048x10_1_1_0_0_n_n none v75
          (truncf .bf16 (select (cmpf .oge v76 (broadcast S10x20 (Scalar.ofBits (F := Ideal) .f32 0x00000000#32)))
            (broadcast S10x20 (Scalar.ofBits (F := Ideal) .f32 0x3F800000#32))
            (broadcast S10x20 (Scalar.ofBits (F := Ideal) .f32 0xBF800000#32))) bitsLt_bf16_f32)
          (constant (F := Ideal) S2048x10 .f32 0x00000000#32))
        (broadcastTo S2048x10 (shapeCast S1x10 v84 shapeCasts_S1x10_S1x10) broadcasts_S1x10_S2048x10) (ix2 p r)
        = logit (fun k => v75 (ix2 p k)) (fun q k => v76 (ix2 q k)) (fun q => v84 (ix2 (0 : Fin 1) q)) r := fun r =>
    logit_apply dot_S2048x20_S10x20_S2048x10_1_1_0_0_n_n_wf v75 v76 v84 bitsLt_bf16_f32 shapeCasts_S1x10_S1x10
      broadcasts_S1x10_S2048x10 p r
  simp only [hz]

/-- The body's whole store at (p, q), from the fifteen loaded blocks: the network's output entry q for row p of the
    input block, with the parameters' one-row matrices read along their row. -/
theorem body_apply (x0 : Vec Ideal S2048x1024 .f32) (x1 : Vec Ideal S50x1024 .f32) (x2 x3 x4 x5 x6 : Vec Ideal S1x50 .f32)
    (x7 : Vec Ideal S20x50 .f32) (x8 x9 x10 x11 x12 : Vec Ideal S1x20 .f32) (x13 : Vec Ideal S10x20 .f32)
    (x14 : Vec Ideal S1x10 .f32) (p : Fin 2048) (q : Fin 10) :
    k0_pay1 (k0_pay5 (k0_pay2 x0 x1 x2 x3 x5 x6 x4) (k0_pay3 (F := Ideal)) (k0_pay4 (F := Ideal)) x7 x8 x9 x11 x12 x10) x13 x14 (ix2 p q)
      = Spec.row (fun c => x0 (ix2 p c)) (fun j c => x1 (ix2 j c))
          (fun j => x2 (ix2 (0 : Fin 1) j)) (fun j => x3 (ix2 (0 : Fin 1) j)) (fun j => x4 (ix2 (0 : Fin 1) j))
          (fun j => x5 (ix2 (0 : Fin 1) j)) (fun j => x6 (ix2 (0 : Fin 1) j))
          (fun k j => x7 (ix2 k j))
          (fun k => x8 (ix2 (0 : Fin 1) k)) (fun k => x9 (ix2 (0 : Fin 1) k)) (fun k => x10 (ix2 (0 : Fin 1) k))
          (fun k => x11 (ix2 (0 : Fin 1) k)) (fun k => x12 (ix2 (0 : Fin 1) k))
          (fun q k => x13 (ix2 q k)) (fun q => x14 (ix2 (0 : Fin 1) q)) q := by
  rw [output_apply]
  simp only [secondHidden_apply, firstHidden_apply]
  rfl

end Cert.KernelIdeal.Rows
-- ==== Proof.KernelWhole.lean ====
/-
  The kernel's result array after the run. Grid point t computes, from rows 2048·t … 2048·t + 2047 of the input and the
  parameters, the network's output for those rows and writes it back as rows 2048·t … 2048·t + 2047 of the result: block
  t of ONE array, the network applied to every row of the input. The 32 blocks fill the 65536 rows, so after the run the
  result array is that array.
-/
import proofs.«168349_j47201690583462_2_alg».proof.Proof.KernelBlocks
import proofs.«168349_j47201690583462_2_alg».proof.Proof.KernelRow

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The network applied to every row of the input array, from the fifteen argument arrays as launched. -/
abbrev result (c : Dev nD) : S65536x10.Idx → EReal :=
  Spec.whole
      (m ((c : Thread nD τ).loc main_arg0) : S65536x1024.Idx → EReal)
      (m ((c : Thread nD τ).loc main_arg1) : S50x1024.Idx → EReal)
      (m ((c : Thread nD τ).loc main_arg2) : S50.Idx → EReal)
      (m ((c : Thread nD τ).loc main_arg3) : S50.Idx → EReal)
      (m ((c : Thread nD τ).loc main_arg4) : S50.Idx → EReal)
      (m ((c : Thread nD τ).loc main_arg5) : S50.Idx → EReal)
      (m ((c : Thread nD τ).loc main_arg6) : S50.Idx → EReal)
      (m ((c : Thread nD τ).loc main_arg7) : S20x50.Idx → EReal)
      (m ((c : Thread nD τ).loc main_arg8) : S20.Idx → EReal)
      (m ((c : Thread nD τ).loc main_arg9) : S20.Idx → EReal)
      (m ((c : Thread nD τ).loc main_arg10) : S20.Idx → EReal)
      (m ((c : Thread nD τ).loc main_arg11) : S20.Idx → EReal)
      (m ((c : Thread nD τ).loc main_arg12) : S20.Idx → EReal)
      (m ((c : Thread nD τ).loc main_arg13) : S10x20.Idx → EReal)
      (m ((c : Thread nD τ).loc main_arg14) : S10.Idx → EReal)

theorem zero_offsets : (![0, 0] : Fin 2 → Nat) = fun _ => 0 := funext fun a => by fin_cases a <;> rfl

/-- What the body stores at (p, q) of its output block at point t: the network's output entry q for row 2048·t + p of the
    input array. -/
theorem store_at (c : Dev nD) (t : Fin cfg0.N) (p : Fin 2048) (q : Fin 10) (r : Fin 65536) (hr : r.val = 2048 * t.val + p.val) :
    k0_pay1 (k0_pay5 (k0_pay2 (iblk m c 0 t) (iblk m c 1 t) (iblk m c 2 t) (iblk m c 3 t) (iblk m c 5 t) (iblk m c 6 t) (iblk m c 4 t))
        (k0_pay3 (F := Ideal)) (k0_pay4 (F := Ideal)) (iblk m c 7 t) (iblk m c 8 t) (iblk m c 9 t) (iblk m c 11 t) (iblk m c 12 t)
        (iblk m c 10 t)) (iblk m c 13 t) (iblk m c 14 t) (ix2 p q)
      = Spec.out
      (m ((c : Thread nD τ).loc main_arg0) : S65536x1024.Idx → EReal)
      (m ((c : Thread nD τ).loc main_arg1) : S50x1024.Idx → EReal)
      (m ((c : Thread nD τ).loc main_arg2) : S50.Idx → EReal)
      (m ((c : Thread nD τ).loc main_arg3) : S50.Idx → EReal)
      (m ((c : Thread nD τ).loc main_arg4) : S50.Idx → EReal)
      (m ((c : Thread nD τ).loc main_arg5) : S50.Idx → EReal)
      (m ((c : Thread nD τ).loc main_arg6) : S50.Idx → EReal)
      (m ((c : Thread nD τ).loc main_arg7) : S20x50.Idx → EReal)
      (m ((c : Thread nD τ).loc main_arg8) : S20.Idx → EReal)
      (m ((c : Thread nD τ).loc main_arg9) : S20.Idx → EReal)
      (m ((c : Thread nD τ).loc main_arg10) : S20.Idx → EReal)
      (m ((c : Thread nD τ).loc main_arg11) : S20.Idx → EReal)
      (m ((c : Thread nD τ).loc main_arg12) : S20.Idx → EReal)
      (m ((c : Thread nD τ).loc main_arg13) : S10x20.Idx → EReal)
      (m ((c : Thread nD τ).loc main_arg14) : S10.Idx → EReal) r q := by
  refine (Rows.body_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t) p q).trans ?_
  unfold Spec.out
  simp only [Blocks.input_block m c t p _ r hr, Blocks.block_1 m c t, Blocks.block_2 m c t, Blocks.block_3 m c t,
    Blocks.block_4 m c t, Blocks.block_5 m c t, Blocks.block_6 m c t, Blocks.block_7 m c t, Blocks.block_8 m c t,
    Blocks.block_9 m c t, Blocks.block_10 m c t, Blocks.block_11 m c t, Blocks.block_12 m c t, Blocks.block_13 m c t,
    Blocks.block_14 m c t]

/-- What point t writes back is block t of the network applied to every row. -/
theorem flushed_eq (c : Dev nD) (t : Fin cfg0.N) :
    (dats m 0 c).flushed 15 t = ((cfg0.win 15).blk t).view.read (Elt Ideal) (result m c) := by
  obtain ⟨-, -, h0, h1⟩ := Blocks.idx_moving t
  have hN : t.val < 32 := by have h := t.isLt; have e : cfg0.N = 32 := Blocks.N_eq; omega
  rw [Value.flushed15]
  unfold out0_15
  rw [View.canon_unit_zero zero_offsets]
  simp only [View.ld_unit_zero (S := S2048x1024) zero_offsets, View.ld_unit_zero (S := S50x1024) zero_offsets,
    View.ld_unit_zero (S := S1x50) zero_offsets, View.ld_unit_zero (S := S20x50) zero_offsets,
    View.ld_unit_zero (S := S1x20) zero_offsets, View.ld_unit_zero (S := S10x20) zero_offsets,
    View.ld_unit_zero (S := S1x10) zero_offsets]
  refine funext fun (y : S2048x10.Idx) => ?_
  rw [eq_ix2 y]
  have hy0 : (y 0).val < 2048 := (y 0).isLt
  have hlt : 2048 * t.val + (y 0).val < 65536 := by omega
  refine (store_at m c t (y 0) (y 1) ⟨2048 * t.val + (y 0).val, hlt⟩ rfl).trans ?_
  show _ = result m c (((cfg0.win 15).blk t).view.emb (ix2 (y 0) (y 1)))
  have e : ((cfg0.win 15).blk t).view.emb (ix2 (y 0) (y 1))
      = (ix2 (⟨2048 * t.val + (y 0).val, hlt⟩ : Fin 65536) (y 1) : S65536x10.Idx) := by
    funext a
    apply Fin.ext
    match a with
    | ⟨0, _⟩ => show win0_15.index t (0 : Fin 2) * 2048 + 1 * (y 0).val = 2048 * t.val + (y 0).val; rw [h0]; omega
    | ⟨1, _⟩ => show win0_15.index t (1 : Fin 2) * 10 + 1 * (y 1).val = (y 1).val; rw [h1]; omega
  rw [e]
  rfl

/-- An index of the result array is in point t's block iff each coordinate is in the block's range on its axis. -/
theorem mem_block (t : Fin cfg0.N) (i : S65536x10.Idx) :
    i ∈ ((cfg0.win 15).blk t).view.set ↔ ∀ a : Fin 2, win0_15.index t a * S2048x10.size a ≤ (i a).val
      ∧ (i a).val < win0_15.index t a * S2048x10.size a + S2048x10.size a := by
  show i ∈ ((View.whole main_v11).slice (win0_15.rect t)).set ↔ _
  rw [View.set_slice_whole, Rect.mem_set_unit]
  exact Iff.rfl

/-- Every index of the result array is in the block of the point that its row falls to: row r in block r / 2048. -/
theorem covered (i : S65536x10.Idx) :
    ∃ t : Fin cfg0.N, (cfg0.win 15).flush t = true ∧ i ∈ ((cfg0.win 15).blk t).view.set := by
  have hi0 : (i 0).val < 65536 := (i 0).isLt
  have hi1 : (i 1).val < 10 := (i 1).isLt
  have hN : cfg0.N = 32 := Blocks.N_eq
  refine ⟨⟨(i 0).val / 2048, by rw [hN]; omega⟩, flush0_15 _, ?_⟩
  rw [mem_block]
  obtain ⟨-, -, h0, h1⟩ := Blocks.idx_moving ⟨(i 0).val / 2048, by rw [hN]; omega⟩
  intro a
  match a with
  | ⟨0, _⟩ =>
    show win0_15.index _ (0 : Fin 2) * 2048 ≤ (i 0).val ∧ (i 0).val < win0_15.index _ (0 : Fin 2) * 2048 + 2048
    rw [h0]
    show (i 0).val / 2048 * 2048 ≤ (i 0).val ∧ (i 0).val < (i 0).val / 2048 * 2048 + 2048
    omega
  | ⟨1, _⟩ =>
    show win0_15.index _ (1 : Fin 2) * 10 ≤ (i 1).val ∧ (i 1).val < win0_15.index _ (1 : Fin 2) * 10 + 10
    rw [h1]
    omega

/-- So the result array after the run is the network applied to every row of the input. -/
theorem final (c : Dev nD) : (dats m 0 c).arrAt 15 cfg0.N = result m c :=
  (dats m 0 c).arrAt_eq_of_cover 15 (result m c) (fun t _ => flushed_eq m c t) covered

/-- The kernel's run: every weakly fair execution terminates with the result array at the network applied to every
    row of the input array, and the fifteen argument arrays as launched. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.Whole
-- ==== Proof.RefStretches.lean ====
/-
  The reference's line of 107 host operations cut into four stretches: the first hidden layer (operations 0 to 38), the
  second hidden layer (39 to 77), the logits (78 to 91) and the logarithm of the softmax (92 to 106). The line's effect on
  the buffers is the four stretches' effects one after the other.
-/
import proofs.«168349_j47201690583462_2_alg».proof.Proof.RefRead

noncomputable section

namespace Cert.ReferenceIdeal.Joined

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

variable {F : FTy → Type} [FloatOps F]

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first three stretches of the line, cut from it by position. -/
abbrev first : List (HloOp τ sig (Elt F)) := (ops (F := F)).take 39
abbrev second : List (HloOp τ sig (Elt F)) := ((ops (F := F)).drop 39).take 39
abbrev third : List (HloOp τ sig (Elt F)) := ((ops (F := F)).drop 78).take 14
/-- The last stretch written out: the fifteen operations of the call that takes the logarithm of the softmax, as the line
    spells them (through typed references to their buffers). -/
abbrev last : List (HloOp τ sig (Elt F)) :=
  [ TRef.nullary (TRef.of (T := ⟨S_, .f32⟩) main_call5_cst) (constant S_ .f32 0xFF800000#32),
    TRef.binary (TRef.of (T := ⟨S65536x10, .f32⟩) main_v64) (TRef.of (T := ⟨S_, .f32⟩) main_call5_cst) (TRef.of (T := ⟨S65536, .f32⟩) main_call5_v0) (fun x v => Host.reduce FloatOps.maximumf x v reducesTo_S65536x10_S65536_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S65536, .f32⟩) main_call5_v1) (broadcastInDim S65536 ![] bcast_S_S65536),
    TRef.binary (TRef.of (T := ⟨S65536, .f32⟩) main_call5_v1) (TRef.of (T := ⟨S65536, .f32⟩) main_call5_v0) (TRef.of (T := ⟨S65536, .f32⟩) main_call5_v2) maximumf,
    TRef.unary (TRef.of (T := ⟨S65536, .f32⟩) main_call5_v2) (TRef.of (T := ⟨S65536x1, .f32⟩) main_call5_v3) (broadcastInDim S65536x1 ![0] bcast_S65536_S65536x1_0),
    TRef.unary (TRef.of (T := ⟨S65536x1, .f32⟩) main_call5_v3) (TRef.of (T := ⟨S65536x10, .f32⟩) main_call5_v4) (broadcastInDim S65536x10 ![0, 1] bcast_S65536x1_S65536x10_0_1),
    TRef.binary (TRef.of (T := ⟨S65536x10, .f32⟩) main_v64) (TRef.of (T := ⟨S65536x10, .f32⟩) main_call5_v4) (TRef.of (T := ⟨S65536x10, .f32⟩) main_call5_v5) subf,
    TRef.unary (TRef.of (T := ⟨S65536x10, .f32⟩) main_call5_v5) (TRef.of (T := ⟨S65536x10, .f32⟩) main_call5_v6) Host.exp,
    TRef.nullary (TRef.of (T := ⟨S_, .f32⟩) main_call5_cst_1) (constant S_ .f32 0x00000000#32),
    TRef.binary (TRef.of (T := ⟨S65536x10, .f32⟩) main_call5_v6) (TRef.of (T := ⟨S_, .f32⟩) main_call5_cst_1) (TRef.of (T := ⟨S65536, .f32⟩) main_call5_v7) (fun x v => Host.reduceAdd x v reducesTo_S65536x10_S65536_d1 h_S_),
    TRef.unary (TRef.of (T := ⟨S65536, .f32⟩) main_call5_v7) (TRef.of (T := ⟨S65536x1, .f32⟩) main_call5_v8) (broadcastInDim S65536x1 ![0] bcast_S65536_S65536x1_0),
    TRef.unary (TRef.of (T := ⟨S65536x1, .f32⟩) main_call5_v8) (TRef.of (T := ⟨S65536x1, .f32⟩) main_call5_v9) Host.log,
    TRef.unary (TRef.of (T := ⟨S65536x1, .f32⟩) main_call5_v9) (TRef.of (T := ⟨S65536x10, .f32⟩) main_call5_v10) (broadcastInDim S65536x10 ![0, 1] bcast_S65536x1_S65536x10_0_1),
    TRef.binary (TRef.of (T := ⟨S65536x10, .f32⟩) main_call5_v5) (TRef.of (T := ⟨S65536x10, .f32⟩) main_call5_v10) (TRef.of (T := ⟨S65536x10, .f32⟩) main_v65) subf ]

theorem ops_split : ops (F := F) = first ++ (second ++ (third ++ last)) := rfl

/-- The line's effect is the four stretches' effects one after the other. -/
theorem after_ops (V : Valuation τ sig (Elt F)) :
    after (ops (F := F)) V = after last (after third (after second (after first V))) :=
  (congrArg (fun l => after l V) (ops_split (F := F))).trans (by rw [after_append, after_append, after_append])

end Cert.ReferenceIdeal.Joined
-- ==== Proof.RefLine1.lean ====
/-
  The first stretch of the reference's line, from arbitrary buffer contents: it leaves the first hidden layer in its
  buffer, as the operation-by-operation reading's stage of the seven arguments it reads.
-/
import proofs.«168349_j47201690583462_2_alg».proof.Proof.RefStretches

noncomputable section

namespace Cert.ReferenceIdeal.Joined

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

variable {F : FTy → Type} [FloatOps F]

set_option maxRecDepth 8192 in
set_option maxHeartbeats 4000000 in
/-- The first stretch leaves the first hidden layer in its buffer. -/
theorem first_result (U : Valuation τ sig (Elt F)) :
    after (first (F := F)) U (Proc.devRef .tc main_v27)
      = val_main_v27 (U (Proc.devRef .tc main_arg0)) (U (Proc.devRef .tc main_arg1)) (U (Proc.devRef .tc main_arg2)) (U (Proc.devRef .tc main_arg3)) (U (Proc.devRef .tc main_arg4)) (U (Proc.devRef .tc main_arg5)) (U (Proc.devRef .tc main_arg6)) := by
  simp only [first, ops, List.take_succ_cons, List.take_zero]
  after_results_simp
  rfl

end Cert.ReferenceIdeal.Joined
-- ==== Proof.RefLine1Keeps.lean ====
/-
  The first stretch of the reference's line writes none of the later layers' parameter buffers.
-/
import proofs.«168349_j47201690583462_2_alg».proof.Proof.RefStretches

noncomputable section

namespace Cert.ReferenceIdeal.Joined

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

variable {F : FTy → Type} [FloatOps F]

set_option maxRecDepth 8192 in
set_option maxHeartbeats 4000000 in
/-- The first stretch leaves the later layers' parameters as they were. -/
theorem first_keeps (U : Valuation τ sig (Elt F)) :
    after (first (F := F)) U (Proc.devRef .tc main_arg7) = U (Proc.devRef .tc main_arg7)
    ∧ after (first (F := F)) U (Proc.devRef .tc main_arg8) = U (Proc.devRef .tc main_arg8)
    ∧ after (first (F := F)) U (Proc.devRef .tc main_arg9) = U (Proc.devRef .tc main_arg9)
    ∧ after (first (F := F)) U (Proc.devRef .tc main_arg10) = U (Proc.devRef .tc main_arg10)
    ∧ after (first (F := F)) U (Proc.devRef .tc main_arg11) = U (Proc.devRef .tc main_arg11)
    ∧ after (first (F := F)) U (Proc.devRef .tc main_arg12) = U (Proc.devRef .tc main_arg12)
    ∧ after (first (F := F)) U (Proc.devRef .tc main_arg13) = U (Proc.devRef .tc main_arg13)
    ∧ after (first (F := F)) U (Proc.devRef .tc main_arg14) = U (Proc.devRef .tc main_arg14) := by
  simp only [first, ops, List.take_succ_cons, List.take_zero]
  refine ⟨?_, ?_, ?_, ?_, ?_, ?_, ?_, ?_⟩ <;> after_results_simp

end Cert.ReferenceIdeal.Joined
-- ==== Proof.RefLine2.lean ====
/-
  The second stretch of the reference's line, from buffer contents whose first-layer buffer holds the first hidden layer:
  it leaves the second hidden layer in its buffer, and writes neither of the last layer's parameter buffers.
-/
import proofs.«168349_j47201690583462_2_alg».proof.Proof.RefStretches

noncomputable section

namespace Cert.ReferenceIdeal.Joined

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

variable {F : FTy → Type} [FloatOps F]

set_option maxRecDepth 8192 in
set_option maxHeartbeats 4000000 in
/-- The second stretch, from contents whose first-layer buffer holds the first hidden layer, leaves the second. -/
theorem second_result (U : Valuation τ sig (Elt F)) (x0 : (⟨S65536x1024, .f32⟩ : BufTy).Contents (Elt F)) (x1 : (⟨S50x1024, .f32⟩ : BufTy).Contents (Elt F)) (x2 : (⟨S50, .f32⟩ : BufTy).Contents (Elt F)) (x3 : (⟨S50, .f32⟩ : BufTy).Contents (Elt F)) (x4 : (⟨S50, .f32⟩ : BufTy).Contents (Elt F)) (x5 : (⟨S50, .f32⟩ : BufTy).Contents (Elt F)) (x6 : (⟨S50, .f32⟩ : BufTy).Contents (Elt F))
    (h : U (Proc.devRef .tc main_v27) = val_main_v27 x0 x1 x2 x3 x4 x5 x6) :
    after (second (F := F)) U (Proc.devRef .tc main_v55)
      = val_main_v55 x0 x1 x2 x3 x4 x5 x6 (U (Proc.devRef .tc main_arg7)) (U (Proc.devRef .tc main_arg8)) (U (Proc.devRef .tc main_arg9)) (U (Proc.devRef .tc main_arg10)) (U (Proc.devRef .tc main_arg11)) (U (Proc.devRef .tc main_arg12)) := by
  simp only [second, ops, List.drop_succ_cons, List.drop_zero, List.take_succ_cons, List.take_zero]
  after_results_simp
  rw [h]
  rfl

set_option maxRecDepth 8192 in
set_option maxHeartbeats 4000000 in
theorem second_keeps (U : Valuation τ sig (Elt F)) :
    after (second (F := F)) U (Proc.devRef .tc main_arg13) = U (Proc.devRef .tc main_arg13)
    ∧ after (second (F := F)) U (Proc.devRef .tc main_arg14) = U (Proc.devRef .tc main_arg14) := by
  simp only [second, ops, List.drop_succ_cons, List.drop_zero, List.take_succ_cons, List.take_zero]
  refine ⟨?_, ?_⟩ <;> after_results_simp

end Cert.ReferenceIdeal.Joined
-- ==== Proof.RefLine3.lean ====
/-
  The third stretch of the reference's line, from buffer contents whose second-layer buffer holds the second hidden layer:
  it leaves the logits in their buffer.
-/
import proofs.«168349_j47201690583462_2_alg».proof.Proof.RefStretches

noncomputable section

namespace Cert.ReferenceIdeal.Joined

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

variable {F : FTy → Type} [FloatOps F]

set_option maxRecDepth 8192 in
set_option maxHeartbeats 4000000 in
/-- The third stretch, from contents whose second-layer buffer holds the second hidden layer, leaves the logits. -/
theorem third_result (U : Valuation τ sig (Elt F)) (x0 : (⟨S65536x1024, .f32⟩ : BufTy).Contents (Elt F)) (x1 : (⟨S50x1024, .f32⟩ : BufTy).Contents (Elt F)) (x2 : (⟨S50, .f32⟩ : BufTy).Contents (Elt F)) (x3 : (⟨S50, .f32⟩ : BufTy).Contents (Elt F)) (x4 : (⟨S50, .f32⟩ : BufTy).Contents (Elt F)) (x5 : (⟨S50, .f32⟩ : BufTy).Contents (Elt F)) (x6 : (⟨S50, .f32⟩ : BufTy).Contents (Elt F)) (x7 : (⟨S20x50, .f32⟩ : BufTy).Contents (Elt F)) (x8 : (⟨S20, .f32⟩ : BufTy).Contents (Elt F)) (x9 : (⟨S20, .f32⟩ : BufTy).Contents (Elt F)) (x10 : (⟨S20, .f32⟩ : BufTy).Contents (Elt F)) (x11 : (⟨S20, .f32⟩ : BufTy).Contents (Elt F)) (x12 : (⟨S20, .f32⟩ : BufTy).Contents (Elt F))
    (h : U (Proc.devRef .tc main_v55) = val_main_v55 x0 x1 x2 x3 x4 x5 x6 x7 x8 x9 x10 x11 x12) :
    after (third (F := F)) U (Proc.devRef .tc main_v64)
      = val_main_v64 x0 x1 x2 x3 x4 x5 x6 x7 x8 x9 x10 x11 x12 (U (Proc.devRef .tc main_arg13)) (U (Proc.devRef .tc main_arg14)) := by
  simp only [third, ops, List.drop_succ_cons, List.drop_zero, List.take_succ_cons, List.take_zero]
  after_results_simp
  rw [h]
  rfl

end Cert.ReferenceIdeal.Joined
-- ==== Proof.RefLine4.lean ====
/-
  The last stretch of the reference's line, the logarithm of the softmax, from buffer contents whose logits buffer holds
  the logits. Its operations belong to a called function and are spelt through typed references: each moves its operands
  from their buffers' types to the values' own types and its result back. A value moved to a buffer's type and back is
  itself, whatever the reference. The hypothesis and the conclusion are stated with the move to the buffer's type written
  out, so that in the evaluated stretch every move has its way back next to it.
-/
import proofs.«168349_j47201690583462_2_alg».proof.Proof.RefStretches

noncomputable section

namespace Cert.ReferenceIdeal.Joined

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

variable {F : FTy → Type} [FloatOps F]

/-- A value moved to a typed reference's buffer type and back is itself. -/
theorem ofBuf_toBuf {Val : EltTy → Type} {T : BufTy} (x : TRef sig T) (v : T.Contents Val) : x.ofBuf (x.toBuf v) = v := by
  obtain ⟨r, h, a, b⟩ := x
  subst h
  rfl

/-- The logits buffer and the result buffer as typed references. -/
abbrev logitsRef : TRef sig (⟨S65536x10, .f32⟩ : BufTy) := TRef.of main_v64
abbrev resultRef : TRef sig (⟨S65536x10, .f32⟩ : BufTy) := TRef.of main_v65

set_option maxRecDepth 8192 in
set_option maxHeartbeats 4000000 in
/-- The last stretch, from contents whose logits buffer holds the logits, leaves the logarithm of their softmax. -/
theorem last_result (U : Valuation τ sig (Elt F)) (x0 : (⟨S65536x1024, .f32⟩ : BufTy).Contents (Elt F)) (x1 : (⟨S50x1024, .f32⟩ : BufTy).Contents (Elt F)) (x2 : (⟨S50, .f32⟩ : BufTy).Contents (Elt F)) (x3 : (⟨S50, .f32⟩ : BufTy).Contents (Elt F)) (x4 : (⟨S50, .f32⟩ : BufTy).Contents (Elt F)) (x5 : (⟨S50, .f32⟩ : BufTy).Contents (Elt F)) (x6 : (⟨S50, .f32⟩ : BufTy).Contents (Elt F)) (x7 : (⟨S20x50, .f32⟩ : BufTy).Contents (Elt F)) (x8 : (⟨S20, .f32⟩ : BufTy).Contents (Elt F)) (x9 : (⟨S20, .f32⟩ : BufTy).Contents (Elt F)) (x10 : (⟨S20, .f32⟩ : BufTy).Contents (Elt F)) (x11 : (⟨S20, .f32⟩ : BufTy).Contents (Elt F)) (x12 : (⟨S20, .f32⟩ : BufTy).Contents (Elt F)) (x13 : (⟨S10x20, .f32⟩ : BufTy).Contents (Elt F)) (x14 : (⟨S10, .f32⟩ : BufTy).Contents (Elt F))
    (h : U (Proc.devRef .tc main_v64) = logitsRef.toBuf (val_main_v64 x0 x1 x2 x3 x4 x5 x6 x7 x8 x9 x10 x11 x12 x13 x14)) :
    after (last (F := F)) U (Proc.devRef .tc main_v65) = resultRef.toBuf (val_main_v65 x0 x1 x2 x3 x4 x5 x6 x7 x8 x9 x10 x11 x12 x13 x14) := by
  unfold last
  after_results_simp
  rw [h]
  simp only [ofBuf_toBuf]
  refine congrArg resultRef.toBuf ?_
  unfold val_main_v65 val_main_call5_v10 val_main_call5_v9 val_main_call5_v8 val_main_call5_v7 val_main_call5_cst_1
    val_main_call5_v6 val_main_call5_v5 val_main_call5_v4 val_main_call5_v3 val_main_call5_v2 val_main_call5_v1
    val_main_call5_cst_0 val_main_call5_v0 val_main_call5_cst
  rfl

end Cert.ReferenceIdeal.Joined
-- ==== Proof.RefLine.lean ====
/-
  The reference's line joined from its four stretches: it leaves in the result buffer the last stage of the
  operation-by-operation reading of the program, as a function of the fifteen argument buffers' contents.
-/
import proofs.«168349_j47201690583462_2_alg».proof.Proof.RefLine1
import proofs.«168349_j47201690583462_2_alg».proof.Proof.RefLine1Keeps
import proofs.«168349_j47201690583462_2_alg».proof.Proof.RefLine2
import proofs.«168349_j47201690583462_2_alg».proof.Proof.RefLine3
import proofs.«168349_j47201690583462_2_alg».proof.Proof.RefLine4

noncomputable section

namespace Cert.ReferenceIdeal.Joined

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

variable {F : FTy → Type} [FloatOps F]

/-- A value moved to the logits buffer's type is itself: the two types are one. -/
theorem toBuf_logits (v : (⟨S65536x10, .f32⟩ : BufTy).Contents (Elt F)) : logitsRef.toBuf v = v := cast_eq _ v

/-- And likewise for the result buffer. -/
theorem toBuf_result (v : (⟨S65536x10, .f32⟩ : BufTy).Contents (Elt F)) : resultRef.toBuf v = v := cast_eq _ v

/-- Joined: the line leaves in the result buffer the program's last stage, of the fifteen argument buffers' contents. -/
theorem result_eq (V : Valuation τ sig (Elt F)) :
    after (ops (F := F)) V (Proc.devRef .tc main_v65)
      = val_main_v65 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops]
  obtain ⟨k7, k8, k9, k10, k11, k12, k13, k14⟩ := first_keeps (F := F) V
  obtain ⟨j13, j14⟩ := second_keeps (F := F) (after first V)
  have h1 := first_result (F := F) V
  have h2 := second_result (F := F) (after first V) _ _ _ _ _ _ _ h1
  rw [k7, k8, k9, k10, k11, k12] at h2
  have h3 := third_result (F := F) (after second (after first V)) _ _ _ _ _ _ _ _ _ _ _ _ _ h2
  rw [j13, j14, k13, k14] at h3
  exact (last_result (F := F) (after third (after second (after first V))) _ _ _ _ _ _ _ _ _ _ _ _ _ _ _
    (h3.trans (toBuf_logits _).symm)).trans (toBuf_result _)

end Cert.ReferenceIdeal.Joined
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.LibSignLayerHost.lean ====
/-
  The layers of a binarised perceptron as a host program computes them on a whole batch of rows, read at one entry, at
  the ideal values. A parameter vector is spread over the rows through a one-row matrix; the weights are binarised by a
  comparison with a splat of zero and a choice between splats of 1 and −1, transposed, and multiplied on the right,
  contracting the row's axis with the transposed matrix's first axis: at (r, j) the sum over c of the row's entry c
  times the sign of weight (j, c). A row maximum is a reduction from negative infinity, after which the host takes
  the larger of negative infinity and it once more (no change), keeps it as a column and spreads it back.
  So a normalised unit, a hidden unit, a logit and the logarithm of the softmax read at (r, ·) are the functions of
  row r that LibSignNet.lean defines. Stated for any extents: a rows, d inputs, n units.
  (It imports LibDot.lean, LibHostRead.lean and LibSignNet.lean, which must be copied with it.)
-/
import Idealize.ShloMosaic.Lib.ValueLayout
import Idealize.ShloMosaic.PureOps.Ideal.Laws
import proofs.«168349_j47201690583462_2_alg».proof.Proof.LibDot
import proofs.«168349_j47201690583462_2_alg».proof.Proof.LibHostRead
import proofs.«168349_j47201690583462_2_alg».proof.Proof.LibSignNet

noncomputable section

namespace Cert.LibSignLayerHost

open Idealize.ShloMosaic Idealize.ShloMosaic.ValueIdx Cert.LibSignNet Cert.LibHostRead
open scoped BigOperators

variable {a d n : Nat}

/-- The f32 word of negative infinity denotes the least extended real. -/
theorem ofBits_neg_inf : Ideal.ofBits .f32 0xFF800000#32 = (⊥ : EReal) := by simp [Ideal.ofBits, Ideal.ieee]

/-- The weights binarised by a comparison with a splat of zero and a choice between splats of 1 and −1 (and a change of
    format that changes nothing): at every index the sign of the weight. -/
theorem signWeights_apply {s : Shape} (W : FVec Ideal s .f32) (hz : (⟨0, ![]⟩ : Shape).BroadcastsInDim s (![] : Fin 0 → Fin s.rank))
    (i : s.Idx) :
    id (select (cmpf .oge W (broadcastInDim s (![] : Fin 0 → Fin s.rank) hz (constant (F := Ideal) ⟨0, ![]⟩ .f32 0x00000000#32)))
        (broadcastInDim s (![] : Fin 0 → Fin s.rank) hz (constant (F := Ideal) ⟨0, ![]⟩ .f32 0x3F800000#32))
        (broadcastInDim s (![] : Fin 0 → Fin s.rank) hz (constant (F := Ideal) ⟨0, ![]⟩ .f32 0xBF800000#32))) i = sgn (W i) := rfl

/-- The batch times the transpose of the binarised weights at (r, j): the sum over the inputs of row r's entry times
    the sign of weight (j, ·). -/
theorem signProduct_apply (w : DotDims.WF ⟨2, ![a, d]⟩ ⟨2, ![d, n]⟩ ⟨2, ![a, n]⟩ [1] [0] [0] [1] [] [])
    (X : FVec Ideal ⟨2, ![a, d]⟩ .f32) (Wm : FVec Ideal ⟨2, ![n, d]⟩ .f32)
    (hz : (⟨0, ![]⟩ : Shape).BroadcastsInDim ⟨2, ![n, d]⟩ (![] : Fin 0 → Fin 2))
    (ht : (⟨2, ![n, d]⟩ : Shape).Transposes [1, 0] ⟨2, ![d, n]⟩) (r : Fin a) (j : Fin n) :
    Host.dotGeneral (LibDot.dims w) none X (transpose ⟨2, ![d, n]⟩ [1, 0] (id (select (cmpf .oge Wm (broadcastInDim ⟨2, ![n, d]⟩ (![] : Fin 0 → Fin 2) hz (constant (F := Ideal) ⟨0, ![]⟩ .f32 0x00000000#32))) (broadcastInDim ⟨2, ![n, d]⟩ (![] : Fin 0 → Fin 2) hz (constant (F := Ideal) ⟨0, ![]⟩ .f32 0x3F800000#32)) (broadcastInDim ⟨2, ![n, d]⟩ (![] : Fin 0 → Fin 2) hz (constant (F := Ideal) ⟨0, ![]⟩ .f32 0xBF800000#32)))) ht) (ix2 r j)
      = ∑ c : Fin d, X (ix2 r c) * sgn (Wm (ix2 j c)) := by
  rw [LibDot.dotGeneral_apply w none X _ r j]
  refine Finset.sum_congr rfl fun c _ => ?_
  rw [transpose_ix2_apply _ ht c j]
  rfl

/-- A normalised unit as the host computes it on the batch — scale times (product plus bias minus mean), times the
    reciprocal square root of the floored variance, plus shift, every parameter vector spread over the rows — read at
    (r, j): unit j of row r. -/
theorem norm_apply (w : DotDims.WF ⟨2, ![a, d]⟩ ⟨2, ![d, n]⟩ ⟨2, ![a, n]⟩ [1] [0] [0] [1] [] [])
    (X : FVec Ideal ⟨2, ![a, d]⟩ .f32) (Wm : FVec Ideal ⟨2, ![n, d]⟩ .f32) (b g mu var be : FVec Ideal ⟨1, ![n]⟩ .f32)
    (hz : (⟨0, ![]⟩ : Shape).BroadcastsInDim ⟨2, ![n, d]⟩ (![] : Fin 0 → Fin 2))
    (ht : (⟨2, ![n, d]⟩ : Shape).Transposes [1, 0] ⟨2, ![d, n]⟩)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (hv : (⟨0, ![]⟩ : Shape).BroadcastsInDim ⟨1, ![n]⟩ (![] : Fin 0 → Fin 1)) (fl : BitVec 32) (r : Fin a) (j : Fin n) :
    addf (mulf (mulf (broadcastInDim ⟨2, ![a, n]⟩ ![0, 1] h2 (broadcastInDim ⟨2, ![1, n]⟩ ![1] h1 g))
          (subf (addf (Host.dotGeneral (LibDot.dims w) none X (transpose ⟨2, ![d, n]⟩ [1, 0] (id (select (cmpf .oge Wm (broadcastInDim ⟨2, ![n, d]⟩ (![] : Fin 0 → Fin 2) hz (constant (F := Ideal) ⟨0, ![]⟩ .f32 0x00000000#32))) (broadcastInDim ⟨2, ![n, d]⟩ (![] : Fin 0 → Fin 2) hz (constant (F := Ideal) ⟨0, ![]⟩ .f32 0x3F800000#32)) (broadcastInDim ⟨2, ![n, d]⟩ (![] : Fin 0 → Fin 2) hz (constant (F := Ideal) ⟨0, ![]⟩ .f32 0xBF800000#32)))) ht))
              (broadcastInDim ⟨2, ![a, n]⟩ ![0, 1] h2 (broadcastInDim ⟨2, ![1, n]⟩ ![1] h1 b)))
            (broadcastInDim ⟨2, ![a, n]⟩ ![0, 1] h2 (broadcastInDim ⟨2, ![1, n]⟩ ![1] h1 mu))))
        (broadcastInDim ⟨2, ![a, n]⟩ ![0, 1] h2 (broadcastInDim ⟨2, ![1, n]⟩ ![1] h1
          (Host.rsqrt (addf var (broadcastInDim ⟨1, ![n]⟩ (![] : Fin 0 → Fin 1) hv (constant (F := Ideal) ⟨0, ![]⟩ .f32 fl)))))))
      (broadcastInDim ⟨2, ![a, n]⟩ ![0, 1] h2 (broadcastInDim ⟨2, ![1, n]⟩ ![1] h1 be)) (ix2 r j)
      = norm (Ideal.ofBits .f32 fl) (fun c => X (ix2 r c)) (fun j c => Wm (ix2 j c)) (fun j => b (ix1 j)) (fun j => g (ix1 j))
          (fun j => be (ix1 j)) (fun j => mu (ix1 j)) (fun j => var (ix1 j)) j := by
  simp only [addf_apply, mulf_apply, subf_apply]
  rw [bcastRow_apply g h1 h2 r j, bcastRow_apply b h1 h2 r j, bcastRow_apply mu h1 h2 r j, bcastRow_apply be h1 h2 r j,
    bcastRow_apply _ h1 h2 r j, signProduct_apply w X Wm hz ht r j]
  rfl

/-- A hidden unit as the host computes it: the comparison of a normalised batch with a splat of zero and the choice
    between splats of 1 and −1, at any index the sign of the entry. -/
theorem hidden_apply {s : Shape} (Y : FVec Ideal s .f32) (hz : (⟨0, ![]⟩ : Shape).BroadcastsInDim s (![] : Fin 0 → Fin s.rank))
    (i : s.Idx) (v : EReal) (hv : Y i = v) :
    id (select (cmpf .oge Y (broadcastInDim s (![] : Fin 0 → Fin s.rank) hz (constant (F := Ideal) ⟨0, ![]⟩ .f32 0x00000000#32)))
        (broadcastInDim s (![] : Fin 0 → Fin s.rank) hz (constant (F := Ideal) ⟨0, ![]⟩ .f32 0x3F800000#32))
        (broadcastInDim s (![] : Fin 0 → Fin s.rank) hz (constant (F := Ideal) ⟨0, ![]⟩ .f32 0xBF800000#32))) i = sgn v :=
  (signWeights_apply Y hz i).trans (congrArg sgn hv)

/-- A logit as the host computes it — the product with the transposed binarised weights plus the bias spread over the
    rows — read at (r, q): logit q of row r. -/
theorem logit_apply (w : DotDims.WF ⟨2, ![a, d]⟩ ⟨2, ![d, n]⟩ ⟨2, ![a, n]⟩ [1] [0] [0] [1] [] [])
    (X : FVec Ideal ⟨2, ![a, d]⟩ .f32) (Wm : FVec Ideal ⟨2, ![n, d]⟩ .f32) (b : FVec Ideal ⟨1, ![n]⟩ .f32)
    (hz : (⟨0, ![]⟩ : Shape).BroadcastsInDim ⟨2, ![n, d]⟩ (![] : Fin 0 → Fin 2))
    (ht : (⟨2, ![n, d]⟩ : Shape).Transposes [1, 0] ⟨2, ![d, n]⟩)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    addf (Host.dotGeneral (LibDot.dims w) none X (transpose ⟨2, ![d, n]⟩ [1, 0] (id (select (cmpf .oge Wm (broadcastInDim ⟨2, ![n, d]⟩ (![] : Fin 0 → Fin 2) hz (constant (F := Ideal) ⟨0, ![]⟩ .f32 0x00000000#32))) (broadcastInDim ⟨2, ![n, d]⟩ (![] : Fin 0 → Fin 2) hz (constant (F := Ideal) ⟨0, ![]⟩ .f32 0x3F800000#32)) (broadcastInDim ⟨2, ![n, d]⟩ (![] : Fin 0 → Fin 2) hz (constant (F := Ideal) ⟨0, ![]⟩ .f32 0xBF800000#32)))) ht))
      (broadcastInDim ⟨2, ![a, n]⟩ ![0, 1] h2 (broadcastInDim ⟨2, ![1, n]⟩ ![1] h1 b)) (ix2 r q)
      = logit (fun k => X (ix2 r k)) (fun q k => Wm (ix2 q k)) (fun q => b (ix1 q)) q := by
  simp only [addf_apply]
  rw [bcastRow_apply b h1 h2 r q, signProduct_apply w X Wm hz ht r q]
  rfl

/-- The host's maximum of each row of a matrix from negative infinity: at row r, the supremum over the columns. -/
theorem hostRowMax_apply (z : FVec Ideal ⟨2, ![a, n]⟩ .f32) (h' : (⟨2, ![a, n]⟩ : Shape).ReducesTo [1] ⟨1, ![a]⟩)
    (hu : 0 < (⟨0, ![]⟩ : Shape).numel) (r : Fin a) :
    Host.reduce FloatOps.maximumf z (constant (F := Ideal) ⟨0, ![]⟩ .f32 0xFF800000#32) h' hu (ix1 r)
      = Finset.univ.sup fun k : Fin n => z (ix2 r k) := by
  have h : (⟨2, ![a, n]⟩ : Shape).Reduces [1] ⟨1, ![a]⟩ := ⟨h'.1, Nat.one_pos, h'.2⟩
  rw [Host.reduce_eq_fold_single FloatOps.maximumf z _ h' h hu]
  show Finset.fold max (Ideal.ofBits .f32 0xFF800000#32) (z ∘ h.lift (ix1 r)) Finset.univ = _
  rw [ofBits_neg_inf]
  exact Finset.sup_congr rfl fun k _ => congrArg z (funext fun ax => Fin.ext (match ax with | ⟨0, _⟩ => rfl | ⟨1, _⟩ => rfl))

/-- The logarithm of the softmax as the host computes it on a batch of logits — the row maximum from negative infinity,
    the larger of negative infinity and it, kept as a column and spread back, taken away; the exponentials summed along
    the row from zero, kept as a column, their logarithm spread back and taken away — read at (r, q): entry q of the
    logarithm of the softmax of row r with the row's largest logit taken away. -/
theorem logSoftmax_apply (z : FVec Ideal ⟨2, ![a, n]⟩ .f32) (h' : (⟨2, ![a, n]⟩ : Shape).ReducesTo [1] ⟨1, ![a]⟩)
    (hu : 0 < (⟨0, ![]⟩ : Shape).numel) (hs : (⟨0, ![]⟩ : Shape).BroadcastsInDim ⟨1, ![a]⟩ (![] : Fin 0 → Fin 1))
    (hc : (⟨1, ![a]⟩ : Shape).BroadcastsInDim ⟨2, ![a, 1]⟩ (![0] : Fin 1 → Fin 2))
    (hb : (⟨2, ![a, 1]⟩ : Shape).BroadcastsInDim ⟨2, ![a, n]⟩ (![0, 1] : Fin 2 → Fin 2)) (r : Fin a) (q : Fin n) :
    subf (subf z (broadcastInDim ⟨2, ![a, n]⟩ ![0, 1] hb (broadcastInDim ⟨2, ![a, 1]⟩ ![0] hc
            (maximumf (broadcastInDim ⟨1, ![a]⟩ (![] : Fin 0 → Fin 1) hs (constant (F := Ideal) ⟨0, ![]⟩ .f32 0xFF800000#32))
              (Host.reduce FloatOps.maximumf z (constant (F := Ideal) ⟨0, ![]⟩ .f32 0xFF800000#32) h' hu)))))
      (broadcastInDim ⟨2, ![a, n]⟩ ![0, 1] hb (Host.log (broadcastInDim ⟨2, ![a, 1]⟩ ![0] hc
        (Host.reduceAdd (Host.exp (subf z (broadcastInDim ⟨2, ![a, n]⟩ ![0, 1] hb (broadcastInDim ⟨2, ![a, 1]⟩ ![0] hc
            (maximumf (broadcastInDim ⟨1, ![a]⟩ (![] : Fin 0 → Fin 1) hs (constant (F := Ideal) ⟨0, ![]⟩ .f32 0xFF800000#32))
              (Host.reduce FloatOps.maximumf z (constant (F := Ideal) ⟨0, ![]⟩ .f32 0xFF800000#32) h' hu))))))
          (constant (F := Ideal) ⟨0, ![]⟩ .f32 0x00000000#32) h' hu)))) (ix2 r q)
      = logSoftmax (Finset.univ.sup fun k => z (ix2 r k)) (fun k => z (ix2 r k)) q := by
  have hshift : ∀ k : Fin n,
      subf z (broadcastInDim ⟨2, ![a, n]⟩ ![0, 1] hb (broadcastInDim ⟨2, ![a, 1]⟩ ![0] hc
        (maximumf (broadcastInDim ⟨1, ![a]⟩ (![] : Fin 0 → Fin 1) hs (constant (F := Ideal) ⟨0, ![]⟩ .f32 0xFF800000#32))
          (Host.reduce FloatOps.maximumf z (constant (F := Ideal) ⟨0, ![]⟩ .f32 0xFF800000#32) h' hu)))) (ix2 r k)
        = z (ix2 r k) - Finset.univ.sup fun k => z (ix2 r k) := fun k => by
    simp only [subf_apply]
    rw [bcast_a1_ab_apply _ hb r k, bcast_a_a1_apply _ hc r 0]
    show _ - max (Ideal.ofBits .f32 0xFF800000#32) (Host.reduce FloatOps.maximumf z _ h' hu (ix1 r)) = _
    rw [hostRowMax_apply z h' hu r, ofBits_neg_inf, max_bot_sup]
  simp only [subf_apply] at hshift ⊢
  rw [hshift q, bcast_a1_ab_apply _ hb r q]
  rw [hostLog_apply, bcast_a_a1_apply _ hc r 0, hostSumAxis1_apply _ _ h' hu Ideal.ofBits_zero_f32 r]
  unfold logSoftmax
  refine congrArg (fun s => _ - Ideal.log s) (Finset.sum_congr rfl fun k _ => ?_)
  show Ideal.exp _ = _
  exact congrArg Ideal.exp (hshift k)

end Cert.LibSignLayerHost
-- ==== Proof.RefRow.lean ====
/-
  The reference's last stage read at an entry: entry (r, q) of what the program returns is entry q of the network's output
  for row r of the input array. Layer by layer: the stretch of operations that makes a layer, read down to the layer
  before it, is the host's spelling of that layer (LibSignLayerHost.lean), and the layer before it enters only through
  its own row r.
-/
import proofs.«168349_j47201690583462_2_alg».proof.Proof.RefRead
import proofs.«168349_j47201690583462_2_alg».proof.Proof.LibSignLayerHost
import proofs.«168349_j47201690583462_2_alg».proof.Proof.Spec

noncomputable section

namespace Cert.ReferenceIdeal.Rows

open Cert.ReferenceIdeal Cert.ReferenceIdeal.Gen Cert.ReferenceIdeal.Stages Idealize.ShloMosaic Idealize.ShloMosaic.ValueIdx
open Cert.LibSignNet Cert.LibSignLayerHost

variable (X0 : FVec Ideal S65536x1024 .f32) (X1 : FVec Ideal S50x1024 .f32) (X2 X3 X4 X5 X6 : FVec Ideal S50 .f32)
    (X7 : FVec Ideal S20x50 .f32) (X8 X9 X10 X11 X12 : FVec Ideal S20 .f32) (X13 : FVec Ideal S10x20 .f32) (X14 : FVec Ideal S10 .f32)

/-- The first layer's normalised unit j of row r. -/
theorem firstNorm_apply (r : Fin 65536) (j : Fin 50) :
    val_main_v23 (F := Ideal) X0 X1 X2 X3 X4 X5 X6 (ix2 r j)
      = norm Spec.varFloor (fun c => X0 (ix2 r c)) (fun j c => X1 (ix2 j c)) (fun j => X2 (ix1 j)) (fun j => X3 (ix1 j))
          (fun j => X4 (ix1 j)) (fun j => X5 (ix1 j)) (fun j => X6 (ix1 j)) j := by
  unfold val_main_v23 val_main_v22 val_main_v21 val_main_v20 val_main_v19 val_main_v18 val_main_v17 val_main_v16 val_main_v15 val_main_cst_2 val_main_v14 val_main_v13 val_main_v12 val_main_v11 val_main_v10 val_main_v9 val_main_v8 val_main_v7 val_main_v6 val_main_v5 val_main_v4 val_main_v3 val_main_v2 val_main_v1 val_main_v0 val_main_cst val_main_call0_v0 val_main_call0_v1 val_main_cst_0 val_main_cst_1
  exact norm_apply dot_S65536x1024_S1024x50_S65536x50_1_0_0_1_n_n_wf X0 X1 X2 X3 X5 X6 X4 bcast_S_S50x1024
    transposes_S50x1024_S1024x50_1_0 bcast_S50_S1x50_1 bcast_S1x50_S65536x50_0_1 bcast_S_S50 0x38D1B717#32 r j

/-- The first hidden layer's unit j of row r. -/
theorem firstHidden_apply (r : Fin 65536) (j : Fin 50) :
    val_main_v27 (F := Ideal) X0 X1 X2 X3 X4 X5 X6 (ix2 r j)
      = hidden Spec.varFloor (fun c => X0 (ix2 r c)) (fun j c => X1 (ix2 j c)) (fun j => X2 (ix1 j)) (fun j => X3 (ix1 j))
          (fun j => X4 (ix1 j)) (fun j => X5 (ix1 j)) (fun j => X6 (ix1 j)) j := by
  unfold val_main_v27 val_main_v26 val_main_v25 val_main_v24 val_main_cst_3 val_main_call1_v0 val_main_call1_v1 val_main_cst_4 val_main_cst_5
  exact hidden_apply (val_main_v23 (F := Ideal) X0 X1 X2 X3 X4 X5 X6) bcast_S_S65536x50 (ix2 r j) _ (firstNorm_apply X0 X1 X2 X3 X4 X5 X6 r j)

/-- The second layer's normalised unit k of row r, from the first hidden layer's row r. -/
theorem secondNorm_apply (r : Fin 65536) (k : Fin 20) :
    val_main_v51 (F := Ideal) X0 X1 X2 X3 X4 X5 X6 X7 X8 X9 X10 X11 X12 (ix2 r k)
      = norm Spec.varFloor (fun j => val_main_v27 (F := Ideal) X0 X1 X2 X3 X4 X5 X6 (ix2 r j)) (fun k j => X7 (ix2 k j)) (fun k => X8 (ix1 k))
          (fun k => X9 (ix1 k)) (fun k => X10 (ix1 k)) (fun k => X11 (ix1 k)) (fun k => X12 (ix1 k)) k := by
  unfold val_main_v51 val_main_v50 val_main_v49 val_main_v48 val_main_v47 val_main_v46 val_main_v45 val_main_v44 val_main_v43 val_main_cst_9 val_main_v42 val_main_v41 val_main_v40 val_main_v39 val_main_v38 val_main_v37 val_main_v36 val_main_v35 val_main_v34 val_main_v33 val_main_v32 val_main_v31 val_main_v30 val_main_v29 val_main_v28 val_main_cst_6 val_main_call2_v0 val_main_call2_v1 val_main_cst_7 val_main_cst_8
  exact norm_apply dot_S65536x50_S50x20_S65536x20_1_0_0_1_n_n_wf (val_main_v27 (F := Ideal) X0 X1 X2 X3 X4 X5 X6) X7 X8 X9 X11 X12 X10
    bcast_S_S20x50 transposes_S20x50_S50x20_1_0 bcast_S20_S1x20_1 bcast_S1x20_S65536x20_0_1 bcast_S_S20 0x38D1B717#32 r k

/-- The second hidden layer's unit k of row r. -/
theorem secondHidden_apply (r : Fin 65536) (k : Fin 20) :
    val_main_v55 (F := Ideal) X0 X1 X2 X3 X4 X5 X6 X7 X8 X9 X10 X11 X12 (ix2 r k)
      = hidden Spec.varFloor (hidden Spec.varFloor (fun c => X0 (ix2 r c)) (fun j c => X1 (ix2 j c)) (fun j => X2 (ix1 j))
            (fun j => X3 (ix1 j)) (fun j => X4 (ix1 j)) (fun j => X5 (ix1 j)) (fun j => X6 (ix1 j)))
          (fun k j => X7 (ix2 k j)) (fun k => X8 (ix1 k)) (fun k => X9 (ix1 k)) (fun k => X10 (ix1 k)) (fun k => X11 (ix1 k))
          (fun k => X12 (ix1 k)) k := by
  unfold val_main_v55 val_main_v54 val_main_v53 val_main_v52 val_main_cst_10 val_main_call3_v0 val_main_call3_v1 val_main_cst_11 val_main_cst_12
  refine hidden_apply (val_main_v51 (F := Ideal) X0 X1 X2 X3 X4 X5 X6 X7 X8 X9 X10 X11 X12) bcast_S_S65536x20 (ix2 r k) _ ?_
  rw [secondNorm_apply X0 X1 X2 X3 X4 X5 X6 X7 X8 X9 X10 X11 X12 r k]
  simp only [firstHidden_apply X0 X1 X2 X3 X4 X5 X6 r]

/-- Logit q of row r. -/
theorem logits_apply (r : Fin 65536) (q : Fin 10) :
    val_main_v64 (F := Ideal) X0 X1 X2 X3 X4 X5 X6 X7 X8 X9 X10 X11 X12 X13 X14 (ix2 r q)
      = Spec.logits (fun c => X0 (ix2 r c)) (fun j c => X1 (ix2 j c)) (fun j => X2 (ix1 j)) (fun j => X3 (ix1 j))
          (fun j => X4 (ix1 j)) (fun j => X5 (ix1 j)) (fun j => X6 (ix1 j)) (fun k j => X7 (ix2 k j)) (fun k => X8 (ix1 k))
          (fun k => X9 (ix1 k)) (fun k => X10 (ix1 k)) (fun k => X11 (ix1 k)) (fun k => X12 (ix1 k))
          (fun q k => X13 (ix2 q k)) (fun q => X14 (ix1 q)) q := by
  unfold val_main_v64 val_main_v63 val_main_v62 val_main_v61 val_main_v60 val_main_v59 val_main_v58 val_main_v57 val_main_v56 val_main_cst_13 val_main_call4_v0 val_main_call4_v1 val_main_cst_14 val_main_cst_15
  refine (logit_apply dot_S65536x20_S20x10_S65536x10_1_0_0_1_n_n_wf (val_main_v55 (F := Ideal) X0 X1 X2 X3 X4 X5 X6 X7 X8 X9 X10 X11 X12) X13 X14 bcast_S_S10x20
    transposes_S10x20_S20x10_1_0 bcast_S10_S1x10_1 bcast_S1x10_S65536x10_0_1 r q).trans ?_
  simp only [secondHidden_apply X0 X1 X2 X3 X4 X5 X6 X7 X8 X9 X10 X11 X12 r]
  rfl

/-- What the reference returns, at (r, q): the network's output entry q for row r of the input array. -/
theorem result_apply (r : Fin 65536) (q : Fin 10) :
    val_main_v65 (F := Ideal) X0 X1 X2 X3 X4 X5 X6 X7 X8 X9 X10 X11 X12 X13 X14 (ix2 r q) = Spec.out X0 X1 X2 X3 X4 X5 X6 X7 X8 X9 X10 X11 X12 X13 X14 r q := by
  unfold val_main_v65 val_main_call5_v10 val_main_call5_v9 val_main_call5_v8 val_main_call5_v7 val_main_call5_cst_1 val_main_call5_v6 val_main_call5_v5 val_main_call5_v4 val_main_call5_v3 val_main_call5_v2 val_main_call5_v1 val_main_call5_cst_0 val_main_call5_v0 val_main_call5_cst
  refine (logSoftmax_apply (val_main_v64 (F := Ideal) X0 X1 X2 X3 X4 X5 X6 X7 X8 X9 X10 X11 X12 X13 X14) reducesTo_S65536x10_S65536_d1 h_S_ bcast_S_S65536
    bcast_S65536_S65536x1_0 bcast_S65536x1_S65536x10_0_1 r q).trans ?_
  simp only [logits_apply X0 X1 X2 X3 X4 X5 X6 X7 X8 X9 X10 X11 X12 X13 X14 r]
  rfl

/-- So the reference returns the network applied to every row of the input. -/
theorem result_eq : val_main_v65 (F := Ideal) X0 X1 X2 X3 X4 X5 X6 X7 X8 X9 X10 X11 X12 X13 X14 = Spec.whole X0 X1 X2 X3 X4 X5 X6 X7 X8 X9 X10 X11 X12 X13 X14 := by
  funext i
  rw [eq_ix2 i]
  exact result_apply X0 X1 X2 X3 X4 X5 X6 X7 X8 X9 X10 X11 X12 X13 X14 (i 0) (i 1)

end Cert.ReferenceIdeal.Rows
-- ==== Proof.RefWhole.lean ====
/-
  The reference's run: every weakly fair execution terminates with the result buffer at the network applied to every
  row of the input array, and the fifteen argument buffers as launched. The line of operations leaves the program's
  last stage in the result buffer (RefLine.lean), that stage is the network row by row (RefRow.lean), and no
  operation of the line writes an argument buffer.
-/
import proofs.«168349_j47201690583462_2_alg».proof.Proof.RefLine
import proofs.«168349_j47201690583462_2_alg».proof.Proof.RefRow

noncomputable section

namespace Cert.ReferenceIdeal.Whole

open Cert.ReferenceIdeal Cert.ReferenceIdeal.Gen Cert.ReferenceIdeal.Line Cert.ReferenceIdeal.Stages
open Idealize.ShloMosaic Idealize.ShloMosaic.TcCoe Idealize.SL.Sem Idealize.ShloMosaic.StableHlo

set_option maxRecDepth 8192 in
set_option maxHeartbeats 40000000 in
/-- No operation of the line writes an argument buffer: each holds after the line what it held before. -/
theorem args_kept {F : FTy → Type} [FloatOps F] (V : Valuation τ sig (Elt F)) :
    after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4)
    ∧ after (ops (F := F)) V (Proc.devRef .tc main_arg5) = V (Proc.devRef .tc main_arg5)
    ∧ after (ops (F := F)) V (Proc.devRef .tc main_arg6) = V (Proc.devRef .tc main_arg6)
    ∧ after (ops (F := F)) V (Proc.devRef .tc main_arg7) = V (Proc.devRef .tc main_arg7)
    ∧ after (ops (F := F)) V (Proc.devRef .tc main_arg8) = V (Proc.devRef .tc main_arg8)
    ∧ after (ops (F := F)) V (Proc.devRef .tc main_arg9) = V (Proc.devRef .tc main_arg9)
    ∧ after (ops (F := F)) V (Proc.devRef .tc main_arg10) = V (Proc.devRef .tc main_arg10)
    ∧ after (ops (F := F)) V (Proc.devRef .tc main_arg11) = V (Proc.devRef .tc main_arg11)
    ∧ after (ops (F := F)) V (Proc.devRef .tc main_arg12) = V (Proc.devRef .tc main_arg12)
    ∧ after (ops (F := F)) V (Proc.devRef .tc main_arg13) = V (Proc.devRef .tc main_arg13)
    ∧ after (ops (F := F)) V (Proc.devRef .tc main_arg14) = V (Proc.devRef .tc main_arg14) := by
  refine ⟨?_, ?_, ?_, ?_, ?_, ?_, ?_, ?_, ?_, ?_, ?_, ?_, ?_, ?_, ?_⟩ <;> after_results_simp

/-- The reference's run at the ideal values. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = Spec.whole
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun r h c => ?_) (run_raw (F := Ideal) m ρ)
  obtain ⟨k0, k1, k2, k3, k4, k5, k6, k7, k8, k9, k10, k11, k12, k13, k14⟩ := args_kept (F := Ideal) (launchContents m c)
  refine ⟨(h c main_v65).trans ((Joined.result_eq (F := Ideal) (launchContents m c)).trans (Rows.result_eq _ _ _ _ _ _ _ _ _ _ _ _ _ _ _)),
    (h c main_arg0).trans k0, (h c main_arg1).trans k1, (h c main_arg2).trans k2, (h c main_arg3).trans k3,
    (h c main_arg4).trans k4, (h c main_arg5).trans k5, (h c main_arg6).trans k6, (h c main_arg7).trans k7,
    (h c main_arg8).trans k8, (h c main_arg9).trans k9, (h c main_arg10).trans k10, (h c main_arg11).trans k11,
    (h c main_arg12).trans k12, (h c main_arg13).trans k13, (h c main_arg14).trans k14⟩

end Cert.ReferenceIdeal.Whole
-- ==== Proof.lean ====
/-
  A binarised three-layer perceptron with batch normalisation and a logarithm of the softmax, as one streaming kernel over
  blocks of 2048 input rows, against the same network written with whole-array operations.

  The network acts on each input row by itself: two hidden layers (a product with the transposed sign-binarised
  weights, bias, normalisation by running mean and floored running variance, scale, shift, sign), ten logits, and
  from each logit the row's largest logit and the logarithm of the sum of the exponentials taken away. Both programs
  compute exactly these operations in this order with the same literals, so at the ideal values — where a change of
  float format is the identity, a matrix-unit product and a host product are the same sum, and a lane reduction and
  a host reduction are the same supremum or sum — each ends with the result array holding, at (r, q), the network's
  output entry q for input row r. The kernel reaches row r in the block of grid point r / 2048; the reference's one
  extra step, the larger of negative infinity and the row maximum, changes nothing. No law is used that would need the
  inputs to be finite, so the precondition is never opened.

  The word-level kernel and the idealized kernel run, terminate and keep their arguments by their frames; the
  reference by its run with the result dropped; the idealized kernel is the kernel's own text read at the ideal values, with no
  operation rewritten, so the claim relating the two is trivially true.
-/
import proofs.«168349_j47201690583462_2_alg».proof.Defs
import proofs.«168349_j47201690583462_2_alg».proof.Proof.Gen.Kernel
import proofs.«168349_j47201690583462_2_alg».proof.Proof.Gen.Kernel.Skeleton
import proofs.«168349_j47201690583462_2_alg».proof.Proof.Gen.Kernel.Launch
import proofs.«168349_j47201690583462_2_alg».proof.Proof.Gen.Kernel.Points
import proofs.«168349_j47201690583462_2_alg».proof.Proof.Gen.Kernel.Frame
import proofs.«168349_j47201690583462_2_alg».proof.Proof.Gen.KernelIdeal
import proofs.«168349_j47201690583462_2_alg».proof.Proof.Gen.KernelIdeal.Skeleton
import proofs.«168349_j47201690583462_2_alg».proof.Proof.Gen.KernelIdeal.Launch
import proofs.«168349_j47201690583462_2_alg».proof.Proof.Gen.KernelIdeal.Points
import proofs.«168349_j47201690583462_2_alg».proof.Proof.Gen.KernelIdeal.Frame
import proofs.«168349_j47201690583462_2_alg».proof.Proof.Gen.KernelIdeal.Value
import proofs.«168349_j47201690583462_2_alg».proof.Proof.Gen.ReferenceIdeal
import proofs.«168349_j47201690583462_2_alg».proof.Proof.Gen.Pre_finite_inputs
import proofs.«168349_j47201690583462_2_alg».proof.Proof.KernelWhole
import proofs.«168349_j47201690583462_2_alg».proof.Proof.RefWhole
import Idealize.ShloMosaic.Adequacy
import Idealize.ShloMosaic.Init

noncomputable section

namespace Cert.Proof

open Idealize.ShloMosaic Idealize.SL.Sem

/-- The word-level kernel runs, terminates and keeps its arguments. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Whole.run m ρ)

/-- From memories that agree on the fifteen arguments both programs end with the result array at the network applied to
    every row of the input: the same function of the same arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨e0, e1, e2, e3, e4, e5, e6, e7, e8, e9, e10, e11, e12, e13, e14⟩ := hagree c
  rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
